-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1024x2 : Shape := ⟨3, ![8, 1024, 2]⟩
abbrev S8x256x2 : Shape := ⟨3, ![8, 256, 2]⟩
abbrev S6x16 : Shape := ⟨2, ![6, 16]⟩
abbrev S16 : Shape := ⟨1, ![16]⟩
abbrev S16x16 : Shape := ⟨2, ![16, 16]⟩
abbrev S_ : Shape := ⟨0, ![]⟩

class Facts : Prop where
  bcast_S_S8x1024x2 : S_.BroadcastsInDim S8x1024x2 (![] : Fin 0 → Fin S8x1024x2.rank)
  reducesTo_S8x1024x2_S_d0_1_2 : S8x1024x2.ReducesTo [0, 1, 2] S_
  h_S_ : 0 < S_.numel
  bcast_S_S8x256x2 : S_.BroadcastsInDim S8x256x2 (![] : Fin 0 → Fin S8x256x2.rank)
  reducesTo_S8x256x2_S_d0_1_2 : S8x256x2.ReducesTo [0, 1, 2] S_
  bcast_S_S6x16 : S_.BroadcastsInDim S6x16 (![] : Fin 0 → Fin S6x16.rank)
  reducesTo_S6x16_S_d0_1 : S6x16.ReducesTo [0, 1] S_
  bcast_S_S16 : S_.BroadcastsInDim S16 (![] : Fin 0 → Fin S16.rank)
  reducesTo_S16_S_d0 : S16.ReducesTo [0] S_
  bcast_S_S16x16 : S_.BroadcastsInDim S16x16 (![] : Fin 0 → Fin S16x16.rank)
  reducesTo_S16x16_S_d0_1 : S16x16.ReducesTo [0, 1] S_

variable [Facts]

def fn_part1 {F : FTy → Type} [FloatOps F] (main_arg4 : FVec F S16 .f32) (main_arg5 : FVec F S16x16 .f32) (main_arg6 : FVec F S16 .f32) (main_v13 : IVec S_ 1) (main_v16 : IVec S6x16 1) : IVec S_ 1 :=
  let main_c_5 : IVec S_ 1 := constantI S_ 1 1#1
  let main_v17 : IVec S_ 1 := (fun x v => Host.reduce IntOp.andi x v reducesTo_S6x16_S_d0_1 h_S_) main_v16 main_c_5
  let main_v18 : IVec S_ 1 := andi main_v13 main_v17
  let main_v19 : FVec F S16 .f32 := Host.absf main_arg4
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S16x16 .f32 := Host.absf main_arg5
  let main_cst_8 : FVec F S_ .f32 := constant S_ .f32 0x7F800000#32
  let main_v25 : FVec F S16x16 .f32 := broadcastInDim S16x16 ![] bcast_S_S16x16 main_cst_8
  let main_v26 : IVec S16x16 1 := cmpf .olt main_v24 main_v25
  let main_c_9 : IVec S_ 1 := constantI S_ 1 1#1
  let main_v27 : IVec S_ 1 := (fun x v => Host.reduce IntOp.andi x v reducesTo_S16x16_S_d0_1 h_S_) main_v26 main_c_9
  let main_v28 : IVec S_ 1 := andi main_v23 main_v27
  let main_v29 : FVec F S16 .f32 := Host.absf main_arg6
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  main_v33

def fn {F : FTy → Type} [FloatOps F] (main_arg0 : FVec F S8x1024x2 .f32) (main_arg1 : FVec F S8x1024x2 .f32) (main_arg2 : FVec F S8x256x2 .f32) (main_arg3 : FVec F S6x16 .f32) (main_arg4 : FVec F S16 .f32) (main_arg5 : FVec F S16x16 .f32) (main_arg6 : FVec F S16 .f32) : IVec S_ 1 :=
  let main_v0 : FVec F S8x1024x2 .f32 := Host.absf main_arg0
  let main_cst : FVec F S_ .f32 := constant S_ .f32 0x7F800000#32
  let main_v1 : FVec F S8x1024x2 .f32 := broadcastInDim S8x1024x2 ![] bcast_S_S8x1024x2 main_cst
  let main_v2 : IVec S8x1024x2 1 := cmpf .olt main_v0 main_v1
  let main_c : IVec S_ 1 := constantI S_ 1 1#1
  let main_v3 : IVec S_ 1 := (fun x v => Host.reduce IntOp.andi x v reducesTo_S8x1024x2_S_d0_1_2 h_S_) main_v2 main_c
  let main_v4 : FVec F S8x1024x2 .f32 := Host.absf main_arg1
  let main_cst_0 : FVec F S_ .f32 := constant S_ .f32 0x7F800000#32
  let main_v5 : FVec F S8x1024x2 .f32 := broadcastInDim S8x1024x2 ![] bcast_S_S8x1024x2 main_cst_0
  let main_v6 : IVec S8x1024x2 1 := cmpf .olt main_v4 main_v5
  let main_c_1 : IVec S_ 1 := constantI S_ 1 1#1
  let main_v7 : IVec S_ 1 := (fun x v => Host.reduce IntOp.andi x v reducesTo_S8x1024x2_S_d0_1_2 h_S_) main_v6 main_c_1
  let main_v8 : IVec S_ 1 := andi main_v3 main_v7
  let main_v9 : FVec F S8x256x2 .f32 := Host.absf main_arg2
  let main_cst_2 : FVec F S_ .f32 := constant S_ .f32 0x7F800000#32
  let main_v10 : FVec F S8x256x2 .f32 := broadcastInDim S8x256x2 ![] bcast_S_S8x256x2 main_cst_2
  let main_v11 : IVec S8x256x2 1 := cmpf .olt main_v9 main_v10
  let main_c_3 : IVec S_ 1 := constantI S_ 1 1#1
  let main_v12 : IVec S_ 1 := (fun x v => Host.reduce IntOp.andi x v reducesTo_S8x256x2_S_d0_1_2 h_S_) main_v11 main_c_3
  let main_v13 : IVec S_ 1 := andi main_v8 main_v12
  let main_v14 : FVec F S6x16 .f32 := Host.absf main_arg3
  let main_cst_4 : FVec F S_ .f32 := constant S_ .f32 0x7F800000#32
  let main_v15 : FVec F S6x16 .f32 := broadcastInDim S6x16 ![] bcast_S_S6x16 main_cst_4
  let main_v16 : IVec S6x16 1 := cmpf .olt main_v14 main_v15
  fn_part1 (F := F) main_arg4 main_arg5 main_arg6 main_v13 main_v16
-- ==== Kernel.lean ====
abbrev S8x1024x2 : Shape := ⟨3, ![8, 1024, 2]⟩
abbrev S8x256x2 : Shape := ⟨3, ![8, 256, 2]⟩
abbrev S6x16 : Shape := ⟨2, ![6, 16]⟩
abbrev S16 : Shape := ⟨1, ![16]⟩
abbrev S16x16 : Shape := ⟨2, ![16, 16]⟩
abbrev S8x1024x16 : Shape := ⟨3, ![8, 1024, 16]⟩
abbrev S1x128x2 : Shape := ⟨3, ![1, 128, 2]⟩
abbrev S1x128x16 : Shape := ⟨3, ![1, 128, 16]⟩
abbrev S128x16 : Shape := ⟨2, ![128, 16]⟩
abbrev S128x2 : Shape := ⟨2, ![128, 2]⟩
abbrev S2x16 : Shape := ⟨2, ![2, 16]⟩
abbrev S128x1x16 : Shape := ⟨3, ![128, 1, 16]⟩
abbrev S128x128x16 : Shape := ⟨3, ![128, 128, 16]⟩
abbrev S1x1x16 : Shape := ⟨3, ![1, 1, 16]⟩
abbrev S16384x16 : Shape := ⟨2, ![16384, 16]⟩
abbrev S1x16 : Shape := ⟨2, ![1, 16]⟩

abbrev nBuf : Space → Nat
  | .hbm => 8
  | .vmem => 15
  | .smem => 0
  | _ => 0

abbrev bufTy : (tb : Table) → Fin (tcTables nBuf tb) → BufTy
  | .hbm, ⟨0, _⟩ => ⟨S8x1024x2, .f32⟩
  | .hbm, ⟨1, _⟩ => ⟨S8x1024x2, .f32⟩
  | .hbm, ⟨2, _⟩ => ⟨S8x256x2, .f32⟩
  | .hbm, ⟨3, _⟩ => ⟨S6x16, .f32⟩
  | .hbm, ⟨4, _⟩ => ⟨S16, .f32⟩
  | .hbm, ⟨5, _⟩ => ⟨S16x16, .f32⟩
  | .hbm, ⟨6, _⟩ => ⟨S16, .f32⟩
  | .hbm, ⟨7, _⟩ => ⟨S8x1024x16, .f32⟩
  | .local _ .vmem, ⟨0, _⟩ => ⟨S1x128x2, .f32⟩
  | .local _ .vmem, ⟨1, _⟩ => ⟨S1x128x2, .f32⟩
  | .local _ .vmem, ⟨2, _⟩ => ⟨S1x128x2, .f32⟩
  | .local _ .vmem, ⟨3, _⟩ => ⟨S1x128x2, .f32⟩
  | .local _ .vmem, ⟨4, _⟩ => ⟨S1x128x2, .f32⟩
  | .local _ .vmem, ⟨5, _⟩ => ⟨S1x128x2, .f32⟩
  | .local _ .vmem, ⟨6, _⟩ => ⟨S1x128x2, .f32⟩
  | .local _ .vmem, ⟨7, _⟩ => ⟨S1x128x2, .f32⟩
  | .local _ .vmem, ⟨8, _⟩ => ⟨S6x16, .f32⟩
  | .local _ .vmem, ⟨9, _⟩ => ⟨S16, .f32⟩
  | .local _ .vmem, ⟨10, _⟩ => ⟨S16x16, .f32⟩
  | .local _ .vmem, ⟨11, _⟩ => ⟨S16, .f32⟩
  | .local _ .vmem, ⟨12, _⟩ => ⟨S1x128x16, .f32⟩
  | .local _ .vmem, ⟨13, _⟩ => ⟨S1x128x16, .f32⟩
  | .local _ .vmem, ⟨14, _⟩ => ⟨S128x16, .f32⟩
  | _, _ => ⟨S8x1024x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨3, ![8, 8, 8], ![false, false, false]⟩

def k0_cond2 (i : grid0.Coords) : BitVec 1 :=
  let arg2 : BitVec 32 := BitVec.ofNat 32 (i 2).val
  let c7_i32 : BitVec 32 := 7#32
  let v55 : BitVec 1 := Scalar.cmpi .eq arg2 c7_i32
  let v56 : BitVec 32 := Scalar.extui v55
  let c0_i32_28 : BitVec 32 := 0#32
  let v57 : BitVec 1 := Scalar.cmpi .ne v56 c0_i32_28
  v57

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x128x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x128x2 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x128x2 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x128x2 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 1 → Memref sig .tc .vmem S6x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S16x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 2 → Memref sig .tc .vmem S1x128x16 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

class Facts₀ : Prop where
  inb_S128x16_S128x16_0_0 : ∀ a, (![0, 0] : Fin 2 → Nat) a + S128x16.size a ≤ S128x16.size a
  h_S128x16 : 0 < S128x16.numel
  shapeCasts_S128x16_S128x16 : S128x16.ShapeCasts S128x16
  inb_S1x128x2_S1x128x2_0_0_0 : ∀ a, (![0, 0, 0] : Fin 3 → Nat) a + S1x128x2.size a ≤ S1x128x2.size a
  h_S1x128x2 : 0 < S1x128x2.numel
  shapeCasts_S1x128x2_S128x2 : S1x128x2.ShapeCasts S128x2
  bitsLt_bf16_f32 : FTy.bits .bf16 < FTy.bits .f32
  inb_S6x16_S6x16_0_0 : ∀ a, (![0, 0] : Fin 2 → Nat) a + S6x16.size a ≤ S6x16.size a
  h_S6x16 : 0 < S6x16.numel
  slices_S6x16_o0_0_S2x16 : S6x16.Slices ![0, 0] S2x16
  slices_S6x16_o2_0_S2x16 : S6x16.Slices ![2, 0] S2x16
  slices_S6x16_o4_0_S2x16 : S6x16.Slices ![4, 0] S2x16
  inb_S16_S16_0 : ∀ a, (![0] : Fin 1 → Nat) a + S16.size a ≤ S16.size a
  h_S16 : 0 < S16.numel
  shapeCasts_S128x16_S128x1x16 : S128x16.ShapeCasts S128x1x16
  shapeCasts_S128x16_S1x128x16 : S128x16.ShapeCasts S1x128x16
  broadcasts_S128x1x16_S128x128x16 : S128x1x16.Broadcasts S128x128x16
  broadcasts_S1x128x16_S128x128x16 : S1x128x16.Broadcasts S128x128x16
  shapeCasts_S16_S1x1x16 : S16.ShapeCasts S1x1x16
  broadcasts_S1x1x16_S128x128x16 : S1x1x16.Broadcasts S128x128x16
  shapeCasts_S128x128x16_S16384x16 : S128x128x16.ShapeCasts S16384x16
  inb_S16x16_S16x16_0_0 : ∀ a, (![0, 0] : Fin 2 → Nat) a + S16x16.size a ≤ S16x16.size a
  h_S16x16 : 0 < S16x16.numel
  shapeCasts_S16_S1x16 : S16.ShapeCasts S1x16
  broadcasts_S1x16_S16384x16 : S1x16.Broadcasts S16384x16
  shapeCasts_S16384x16_S128x128x16 : S16384x16.ShapeCasts S128x128x16
  reduces_S128x128x16_S128x16 : S128x128x16.Reduces [1] S128x16
  inb_S1x128x16_S1x128x16_0_0_0 : ∀ a, (![0, 0, 0] : Fin 3 → Nat) a + S1x128x16.size a ≤ S1x128x16.size a
  h_S1x128x16 : 0 < S1x128x16.numel
  shapeCasts_S1x128x16_S128x16 : S1x128x16.ShapeCasts S128x16
  dot_S128x2_S2x16_S128x16_1_0_0_1_n_n_wf : DotDims.WF S128x2 S2x16 S128x16 [1] [0] [0] [1] [] []
  dot_S16384x16_S16x16_S16384x16_1_0_0_1_n_n_wf : DotDims.WF S16384x16 S16x16 S16384x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x2.size a ≤ S8x1024x2.size a
  hwx0_0 : ∀ i : grid0.Coords, EltTy.bits .f32 = 32 ∨ (Rect.block (s := S8x1024x2) S1x128x2.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x2.size a ≤ S8x1024x2.size a
  hwx0_1 : ∀ i : grid0.Coords, EltTy.bits .f32 = 32 ∨ (Rect.block (s := S8x1024x2) S1x128x2.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x2.size a ≤ S8x1024x2.size a
  hwx0_2 : ∀ i : grid0.Coords, EltTy.bits .f32 = 32 ∨ (Rect.block (s := S8x1024x2) S1x128x2.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x128x2.size a ≤ S8x1024x2.size a
  hwx0_3 : ∀ i : grid0.Coords, EltTy.bits .f32 = 32 ∨ (Rect.block (s := S8x1024x2) S1x128x2.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S6x16.size a ≤ S6x16.size a
  hwx0_4 : ∀ i : grid0.Coords, EltTy.bits .f32 = 32 ∨ (Rect.block (s := S6x16) S6x16.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S16.size a ≤ S16.size a
  hwx0_5 : ∀ i : grid0.Coords, EltTy.bits .f32 = 32 ∨ (Rect.block (s := S16) S16.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S16x16.size a ≤ S16x16.size a
  hwx0_6 : ∀ i : grid0.Coords, EltTy.bits .f32 = 32 ∨ (Rect.block (s := S16x16) S16x16.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S16.size a ≤ S16.size a
  hwx0_7 : ∀ i : grid0.Coords, EltTy.bits .f32 = 32 ∨ (Rect.block (s := S16) S16.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x128x16.size a ≤ S8x1024x16.size a
  hwx0_8 : ∀ i : grid0.Coords, EltTy.bits .f32 = 32 ∨ (Rect.block (s := S8x1024x16) S1x128x16.size (cc0_transform_8 i) (hinb0_8 i)).WholeWords (EltTy.packing .f32)

variable [Facts₀]

def dot_S128x2_S2x16_S128x16_1_0_0_1_n_n : DotDims S128x2 S2x16 S128x16 where
  lhsContracting := [1]
  rhsContracting := [0]
  lhsNonContracting := [0]
  rhsNonContracting := [1]
  lhsBatch := []
  rhsBatch := []
  wf := dot_S128x2_S2x16_S128x16_1_0_0_1_n_n_wf
def dot_S16384x16_S16x16_S16384x16_1_0_0_1_n_n : DotDims S16384x16 S16x16 S16384x16 where
  lhsContracting := [1]
  rhsContracting := [0]
  lhsNonContracting := [0]
  rhsNonContracting := [1]
  lhsBatch := []
  rhsBatch := []
  wf := dot_S16384x16_S16x16_S16384x16_1_0_0_1_n_n_wf

abbrev win0_0 : Pipeline.Window sig grid0 :=
  Pipeline.Window.ofSpec (Memref.whole main_arg0) S1x128x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x128x2.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S1x128x2.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S1x128x2.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S6x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S16.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S16x16.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg6) S16.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v0) S1x128x16.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev idle0 : Fin 9 → grid0.Coords → Bool := fun | 0 => fun _ => false | 1 => fun _ => false | 2 => fun _ => false | 3 => fun _ => false | 4 => fun _ => false | 5 => fun _ => false | 6 => fun _ => false | 7 => fun _ => false | 8 => fun i => !(k0_cond2 i == 1#1) | ⟨_ + 9, h⟩ => absurd h (Nat.not_lt.2 (Nat.le_add_left _ _))

class Facts : Prop extends Facts₀ where

variable [Facts]
-- ==== ReferenceIdeal.lean ====
abbrev S8x1024x2 : Shape := ⟨3, ![8, 1024, 2]⟩
abbrev S8x256x2 : Shape := ⟨3, ![8, 256, 2]⟩
abbrev S6x16 : Shape := ⟨2, ![6, 16]⟩
abbrev S16 : Shape := ⟨1, ![16]⟩
abbrev S16x16 : Shape := ⟨2, ![16, 16]⟩
abbrev S8x1x1024x2 : Shape := ⟨4, ![8, 1, 1024, 2]⟩
abbrev S8x1024x1x2 : Shape := ⟨4, ![8, 1024, 1, 2]⟩
abbrev S8x1024x1024x2 : Shape := ⟨4, ![8, 1024, 1024, 2]⟩
abbrev S8x1024x1024x6 : Shape := ⟨4, ![8, 1024, 1024, 6]⟩
abbrev S8x1024x1024x16 : Shape := ⟨4, ![8, 1024, 1024, 16]⟩
abbrev S1x1x1x16 : Shape := ⟨4, ![1, 1, 1, 16]⟩
abbrev S_ : Shape := ⟨0, ![]⟩
abbrev S8x1024x16 : Shape := ⟨3, ![8, 1024, 16]⟩

abbrev nBuf : Space → Nat
  | .hbm => 33
  | .vmem => 0
  | .smem => 0
  | _ => 0

abbrev bufTy : (tb : Table) → Fin (tcTables nBuf tb) → BufTy
  | .hbm, ⟨0, _⟩ => ⟨S8x1024x2, .f32⟩
  | .hbm, ⟨1, _⟩ => ⟨S8x1024x2, .f32⟩
  | .hbm, ⟨2, _⟩ => ⟨S8x256x2, .f32⟩
  | .hbm, ⟨3, _⟩ => ⟨S6x16, .f32⟩
  | .hbm, ⟨4, _⟩ => ⟨S16, .f32⟩
  | .hbm, ⟨5, _⟩ => ⟨S16x16, .f32⟩
  | .hbm, ⟨6, _⟩ => ⟨S16, .f32⟩
  | .hbm, ⟨7, _⟩ => ⟨S8x1x1024x2, .f32⟩
  | .hbm, ⟨8, _⟩ => ⟨S8x1024x1x2, .f32⟩
  | .hbm, ⟨9, _⟩ => ⟨S8x1024x1024x2, .f32⟩
  | .hbm, ⟨10, _⟩ => ⟨S8x1024x1024x2, .f32⟩
  | .hbm, ⟨11, _⟩ => ⟨S8x1024x1024x2, .f32⟩
  | .hbm, ⟨12, _⟩ => ⟨S8x1x1024x2, .f32⟩
  | .hbm, ⟨13, _⟩ => ⟨S8x1024x1024x2, .f32⟩
  | .hbm, ⟨14, _⟩ => ⟨S8x1024x1x2, .f32⟩
  | .hbm, ⟨15, _⟩ => ⟨S8x1024x1024x2, .f32⟩
  | .hbm, ⟨16, _⟩ => ⟨S8x1024x1024x6, .f32⟩
  | .hbm, ⟨17, _⟩ => ⟨S8x1024x1024x16, .f32⟩
  | .hbm, ⟨18, _⟩ => ⟨S1x1x1x16, .f32⟩
  | .hbm, ⟨19, _⟩ => ⟨S8x1024x1024x16, .f32⟩
  | .hbm, ⟨20, _⟩ => ⟨S8x1024x1024x16, .f32⟩
  | .hbm, ⟨21, _⟩ => ⟨S_, .f32⟩
  | .hbm, ⟨22, _⟩ => ⟨S8x1024x1024x16, .f32⟩
  | .hbm, ⟨23, _⟩ => ⟨S8x1024x1024x16, .f32⟩
  | .hbm, ⟨24, _⟩ => ⟨S8x1024x1024x16, .f32⟩
  | .hbm, ⟨25, _⟩ => ⟨S1x1x1x16, .f32⟩
  | .hbm, ⟨26, _⟩ => ⟨S8x1024x1024x16, .f32⟩
  | .hbm, ⟨27, _⟩ => ⟨S8x1024x1024x16, .f32⟩
  | .hbm, ⟨28, _⟩ => ⟨S_, .f32⟩
  | .hbm, ⟨29, _⟩ => ⟨S8x1024x16, .f32⟩
  | .hbm, ⟨30, _⟩ => ⟨S_, .f32⟩
  | .hbm, ⟨31, _⟩ => ⟨S8x1024x16, .f32⟩
  | .hbm, ⟨32, _⟩ => ⟨S8x1024x16, .f32⟩
  | _, _ => ⟨S8x1024x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_call0_cst : Ref sig .tc := ⟨.hbm, 21, rfl⟩
abbrev main_call0_v0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst : Ref sig .tc := ⟨.hbm, 28, rfl⟩
abbrev main_v19 : Ref sig .tc := ⟨.hbm, 29, rfl⟩
abbrev main_cst_0 : Ref sig .tc := ⟨.hbm, 30, rfl⟩
abbrev main_v20 : Ref sig .tc := ⟨.hbm, 31, rfl⟩
abbrev main_v21 : Ref sig .tc := ⟨.hbm, 32, rfl⟩

abbrev nD : Nat := 1
abbrev τ : Topo := Topo.v7x

variable {F : FTy → Type} [FloatOps F]

class Facts₀ : Prop where
  bcast_S8x1024x2_S8x1x1024x2_0_2_3 : S8x1024x2.BroadcastsInDim S8x1x1024x2 (![0, 2, 3] : Fin 3 → Fin S8x1x1024x2.rank)
  bcast_S8x1024x2_S8x1024x1x2_0_1_3 : S8x1024x2.BroadcastsInDim S8x1024x1x2 (![0, 1, 3] : Fin 3 → Fin S8x1024x1x2.rank)
  bcast_S8x1x1024x2_S8x1024x1024x2_0_1_2_3 : S8x1x1024x2.BroadcastsInDim S8x1024x1024x2 (![0, 1, 2, 3] : Fin 4 → Fin S8x1024x1024x2.rank)
  bcast_S8x1024x1x2_S8x1024x1024x2_0_1_2_3 : S8x1024x1x2.BroadcastsInDim S8x1024x1024x2 (![0, 1, 2, 3] : Fin 4 → Fin S8x1024x1024x2.rank)
  concatenates_S8x1024x1024x2_S8x1024x1024x2_S8x1024x1024x2_S8x1024x1024x6_d3 : Shape.Concatenates [S8x1024x1024x2, S8x1024x1024x2, S8x1024x1024x2] S8x1024x1024x6 3
  bcast_S16_S1x1x1x16_3 : S16.BroadcastsInDim S1x1x1x16 (![3] : Fin 1 → Fin S1x1x1x16.rank)
  bcast_S1x1x1x16_S8x1024x1024x16_0_1_2_3 : S1x1x1x16.BroadcastsInDim S8x1024x1024x16 (![0, 1, 2, 3] : Fin 4 → Fin S8x1024x1024x16.rank)
  bcast_S_S8x1024x1024x16 : S_.BroadcastsInDim S8x1024x1024x16 (![] : Fin 0 → Fin S8x1024x1024x16.rank)
  reducesTo_S8x1024x1024x16_S8x1024x16_d2 : S8x1024x1024x16.ReducesTo [2] S8x1024x16
  h_S_ : 0 < S_.numel
  bcast_S_S8x1024x16 : S_.BroadcastsInDim S8x1024x16 (![] : Fin 0 → Fin S8x1024x16.rank)
  dot_S8x1024x1024x6_S6x16_S8x1024x1024x16_3_0_012_1_n_n_wf : DotDims.WF S8x1024x1024x6 S6x16 S8x1024x1024x16 [3] [0] [0, 1, 2] [1] [] []
  dot_S8x1024x1024x16_S16x16_S8x1024x1024x16_3_0_012_1_n_n_wf : DotDims.WF S8x1024x1024x16 S16x16 S8x1024x1024x16 [3] [0] [0, 1, 2] [1] [] []

variable [Facts₀]

def dot_S8x1024x1024x6_S6x16_S8x1024x1024x16_3_0_012_1_n_n : DotDims S8x1024x1024x6 S6x16 S8x1024x1024x16 where
  lhsContracting := [3]
  rhsContracting := [0]
  lhsNonContracting := [0, 1, 2]
  rhsNonContracting := [1]
  lhsBatch := []
  rhsBatch := []
  wf := dot_S8x1024x1024x6_S6x16_S8x1024x1024x16_3_0_012_1_n_n_wf
def dot_S8x1024x1024x16_S16x16_S8x1024x1024x16_3_0_012_1_n_n : DotDims S8x1024x1024x16 S16x16 S8x1024x1024x16 where
  lhsContracting := [3]
  rhsContracting := [0]
  lhsNonContracting := [0, 1, 2]
  rhsNonContracting := [1]
  lhsBatch := []
  rhsBatch := []
  wf := dot_S8x1024x1024x16_S16x16_S8x1024x1024x16_3_0_012_1_n_n_wf

class Facts : Prop extends Facts₀ where

variable [Facts]
-- ==== Proof.KBody.lean ====
/-
  The kernel body at one grid point, case by case: what it leaves in the accumulator scratch and in the output's
  staging buffer, from what it finds in the input blocks and the scratch.
-/
import proofs.«113326_j27135603376523_1_alg».proof.Proof.Gen.Kernel.Launch
import proofs.«113326_j27135603376523_1_alg».proof.Proof.Gen.Kernel.Skeleton
import proofs.«113326_j27135603376523_1_alg».proof.Proof.Gen.Kernel.Points
import Idealize.ShloMosaic.Lib.Pipeline.FrameBody
import Idealize.ShloMosaic.Lib.Pipeline.Kit
import Idealize.ShloMosaic.Lib.Ring
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The body's two conditions and its accumulator step

The grid is (batch, query tile, context tile) = 8 × 8 × 8; the body runs at every point. At the first context tile
it zeroes the accumulator scratch; at every point it adds the tile's partial sums to it; at the last context tile
it scales the accumulator into the output block. -/

/-- "This is the first context tile": the condition of the zeroing branch, as the body computes it. -/
abbrev cond1 (i : grid0.Coords) : Prop := (Scalar.cmpi .ne (Scalar.extui (Scalar.cmpi .eq (BitVec.ofNat 32 (i 2).val) 0#32)) 0#32) = 1#1
/-- "This is the last context tile": the condition of the write-out branch. -/
abbrev cond2 (i : grid0.Coords) : Prop := k0_cond2 i = 1#1

/-- The accumulator after one point, from the input blocks and the accumulator before it. -/
def accStep (x0 x1 x2 x3 : Vec F S1x128x2 .f32) (w1 : Vec F S6x16 .f32) (b1 : Vec F S16 .f32) (w2 : Vec F S16x16 .f32)
    (b2 : Vec F S16 .f32) (acc : Vec F S128x16 .f32) : Vec F S128x16 .f32 :=
  k0_pay1 (k0_pay4 x0 x1 x2 x3 w1) (k0_pay5 b1) w2 b2 acc

theorem zeros1 : (![0] : Fin 1 → Nat) = fun _ => 0 := funext fun a => by fin_cases a <;> rfl
theorem zeros2 : (![0, 0] : Fin 2 → Nat) = fun _ => 0 := funext fun a => by fin_cases a <;> rfl
theorem zeros3 : (![0, 0, 0] : Fin 3 → Nat) = fun _ => 0 := funext fun a => by fin_cases a <;> rfl

set_option maxHeartbeats 2000000 in
/-- A middle context tile: neither branch is taken; the scratch goes from `acc` to `accStep … acc`, the output's
    staging buffer is not touched. -/
theorem runMid (c : Dev nD) (E : Set ℕ) (i : grid0.Coords)
    (arg3 : Memref sig .tc .vmem S1x128x2 .f32) (harg3 : arg3.IsWhole) (arg4 : Memref sig .tc .vmem S1x128x2 .f32) (harg4 : arg4.IsWhole)
    (arg5 : Memref sig .tc .vmem S1x128x2 .f32) (harg5 : arg5.IsWhole) (arg6 : Memref sig .tc .vmem S1x128x2 .f32) (harg6 : arg6.IsWhole)
    (arg7 : Memref sig .tc .vmem S6x16 .f32) (harg7 : arg7.IsWhole) (arg8 : Memref sig .tc .vmem S16 .f32) (harg8 : arg8.IsWhole)
    (arg9 : Memref sig .tc .vmem S16x16 .f32) (harg9 : arg9.IsWhole) (arg10 : Memref sig .tc .vmem S16 .f32) (harg10 : arg10.IsWhole)
    (arg11 : Memref sig .tc .vmem S1x128x16 .f32) (harg11 : arg11.IsWhole) (arg12 : Memref sig .tc .vmem S128x16 .f32) (harg12 : arg12.IsWhole)
    (hc1 : ¬cond1 i) (hc2 : ¬cond2 i)
    (x0 x1 x2 x3 : Vec F S1x128x2 .f32) (w1 : Vec F S6x16 .f32) (b1 : Vec F S16 .f32) (w2 : Vec F S16x16 .f32) (b2 : Vec F S16 .f32)
    (xo : Vec F S1x128x16 .f32) (acc : Vec F S128x16 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare w1 ∗ owns (c : Thread nD τ) arg8 fullShare b1
        ∗ owns (c : Thread nD τ) arg9 fullShare w2 ∗ owns (c : Thread nD τ) arg10 fullShare b2 ∗ owns (c : Thread nD τ) arg11 fullShare xo
        ∗ owns (c : Thread nD τ) arg12 fullShare acc
        ∗ (iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare w1 ∗ owns (c : Thread nD τ) arg8 fullShare b1
        ∗ owns (c : Thread nD τ) arg9 fullShare w2 ∗ owns (c : Thread nD τ) arg10 fullShare b2 ∗ owns (c : Thread nD τ) arg11 fullShare xo
        ∗ owns (c : Thread nD τ) arg12 fullShare (accStep x0 x1 x2 x3 w1 b1 w2 b2 acc)) -∗ K ⟨⟩))
      ⊢ wp frame (wpE (defs₀ (F := F)) Variants.none c none) E
          (cc0_kernel i arg3 harg3 arg4 harg4 arg5 harg5 arg6 harg6 arg7 harg7 arg8 harg8 arg9 harg9 arg10 harg10 arg11 harg11 arg12 harg12) K := by
  simp only [cc0_kernel_eq_skeleton]; unfold cc0_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  subst hf0 hf1 hf2 hf3 hf4 hf5 hf6 hf7 hf8 hf9
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  rw [View.read_writes_eq_canon _ _ _ (fun y => ⟨_, List.mem_cons_self .., View.mem_set_unit_zero zeros2 inb_S128x16_S128x16_0_0 y⟩),
    View.canon_cons_unit_zero zeros2]
  sl_unfold_run_names
  simp only [View.readAt_eq_ld, View.ld_unit_zero (S := S1x128x2) zeros3, View.ld_unit_zero (S := S6x16) zeros2,
    View.ld_unit_zero (S := S16) zeros1, View.ld_unit_zero (S := S16x16) zeros2, View.ld_unit_zero (S := S128x16) zeros2]
  rfl

set_option maxHeartbeats 2000000 in
/-- The first context tile: the zeroing branch is taken; the scratch, whatever it held, ends at `accStep … 0`. -/
theorem runFirst (c : Dev nD) (E : Set ℕ) (i : grid0.Coords)
    (arg3 : Memref sig .tc .vmem S1x128x2 .f32) (harg3 : arg3.IsWhole) (arg4 : Memref sig .tc .vmem S1x128x2 .f32) (harg4 : arg4.IsWhole)
    (arg5 : Memref sig .tc .vmem S1x128x2 .f32) (harg5 : arg5.IsWhole) (arg6 : Memref sig .tc .vmem S1x128x2 .f32) (harg6 : arg6.IsWhole)
    (arg7 : Memref sig .tc .vmem S6x16 .f32) (harg7 : arg7.IsWhole) (arg8 : Memref sig .tc .vmem S16 .f32) (harg8 : arg8.IsWhole)
    (arg9 : Memref sig .tc .vmem S16x16 .f32) (harg9 : arg9.IsWhole) (arg10 : Memref sig .tc .vmem S16 .f32) (harg10 : arg10.IsWhole)
    (arg11 : Memref sig .tc .vmem S1x128x16 .f32) (harg11 : arg11.IsWhole) (arg12 : Memref sig .tc .vmem S128x16 .f32) (harg12 : arg12.IsWhole)
    (hc1 : cond1 i) (hc2 : ¬cond2 i)
    (x0 x1 x2 x3 : Vec F S1x128x2 .f32) (w1 : Vec F S6x16 .f32) (b1 : Vec F S16 .f32) (w2 : Vec F S16x16 .f32) (b2 : Vec F S16 .f32)
    (xo : Vec F S1x128x16 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare w1 ∗ owns (c : Thread nD τ) arg8 fullShare b1
        ∗ owns (c : Thread nD τ) arg9 fullShare w2 ∗ owns (c : Thread nD τ) arg10 fullShare b2 ∗ owns (c : Thread nD τ) arg11 fullShare xo
        ∗ (∃ d, owns (c : Thread nD τ) arg12 fullShare d)
        ∗ (iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare w1 ∗ owns (c : Thread nD τ) arg8 fullShare b1
        ∗ owns (c : Thread nD τ) arg9 fullShare w2 ∗ owns (c : Thread nD τ) arg10 fullShare b2 ∗ owns (c : Thread nD τ) arg11 fullShare xo
        ∗ owns (c : Thread nD τ) arg12 fullShare (accStep x0 x1 x2 x3 w1 b1 w2 b2 (k0_pay3 (F := F)))) -∗ K ⟨⟩))
      ⊢ wp frame (wpE (defs₀ (F := F)) Variants.none c none) E
          (cc0_kernel i arg3 harg3 arg4 harg4 arg5 harg5 arg6 harg6 arg7 harg7 arg8 harg8 arg9 harg9 arg10 harg10 arg11 harg11 arg12 harg12) K := by
  simp only [cc0_kernel_eq_skeleton]; unfold cc0_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  rw [View.read_writes_eq_canon _ _ _ (fun y => ⟨_, List.mem_cons_self .., View.mem_set_unit_zero zeros2 inb_S128x16_S128x16_0_0 y⟩),
    View.canon_cons_unit_zero zeros2]
  sl_unfold_run_names
  simp only [View.readAt_eq_ld, View.ld_unit_zero (S := S1x128x2) zeros3, View.ld_unit_zero (S := S6x16) zeros2,
    View.ld_unit_zero (S := S16) zeros1, View.ld_unit_zero (S := S16x16) zeros2, View.ld_unit_zero (S := S128x16) zeros2,
    View.readCov_unit_zero (S := S128x16) arg12.view zeros2 inb_S128x16_S128x16_0_0]
  rfl

set_option maxHeartbeats 2000000 in
/-- The last context tile: the write-out branch is taken; the scratch goes from `acc` to `accStep … acc` and the
    output's staging buffer, whatever it held, ends at that scaled (`k0_pay2`). -/
theorem runLast (c : Dev nD) (E : Set ℕ) (i : grid0.Coords)
    (arg3 : Memref sig .tc .vmem S1x128x2 .f32) (harg3 : arg3.IsWhole) (arg4 : Memref sig .tc .vmem S1x128x2 .f32) (harg4 : arg4.IsWhole)
    (arg5 : Memref sig .tc .vmem S1x128x2 .f32) (harg5 : arg5.IsWhole) (arg6 : Memref sig .tc .vmem S1x128x2 .f32) (harg6 : arg6.IsWhole)
    (arg7 : Memref sig .tc .vmem S6x16 .f32) (harg7 : arg7.IsWhole) (arg8 : Memref sig .tc .vmem S16 .f32) (harg8 : arg8.IsWhole)
    (arg9 : Memref sig .tc .vmem S16x16 .f32) (harg9 : arg9.IsWhole) (arg10 : Memref sig .tc .vmem S16 .f32) (harg10 : arg10.IsWhole)
    (arg11 : Memref sig .tc .vmem S1x128x16 .f32) (harg11 : arg11.IsWhole) (arg12 : Memref sig .tc .vmem S128x16 .f32) (harg12 : arg12.IsWhole)
    (hc1 : ¬cond1 i) (hc2 : cond2 i)
    (x0 x1 x2 x3 : Vec F S1x128x2 .f32) (w1 : Vec F S6x16 .f32) (b1 : Vec F S16 .f32) (w2 : Vec F S16x16 .f32) (b2 : Vec F S16 .f32)
    (acc : Vec F S128x16 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare w1 ∗ owns (c : Thread nD τ) arg8 fullShare b1
        ∗ owns (c : Thread nD τ) arg9 fullShare w2 ∗ owns (c : Thread nD τ) arg10 fullShare b2 ∗ (∃ d, owns (c : Thread nD τ) arg11 fullShare d)
        ∗ owns (c : Thread nD τ) arg12 fullShare acc
        ∗ (iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare w1 ∗ owns (c : Thread nD τ) arg8 fullShare b1
        ∗ owns (c : Thread nD τ) arg9 fullShare w2 ∗ owns (c : Thread nD τ) arg10 fullShare b2 ∗ owns (c : Thread nD τ) arg11 fullShare (k0_pay2 (accStep x0 x1 x2 x3 w1 b1 w2 b2 acc))
        ∗ owns (c : Thread nD τ) arg12 fullShare (accStep x0 x1 x2 x3 w1 b1 w2 b2 acc)) -∗ K ⟨⟩))
      ⊢ wp frame (wpE (defs₀ (F := F)) Variants.none c none) E
          (cc0_kernel i arg3 harg3 arg4 harg4 arg5 harg5 arg6 harg6 arg7 harg7 arg8 harg8 arg9 harg9 arg10 harg10 arg11 harg11 arg12 harg12) K := by
  simp only [cc0_kernel_eq_skeleton]; unfold cc0_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, Hk⟩
  subst hf0 hf1 hf2 hf3 hf4 hf5 hf6 hf7 hf9
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    rw [View.read_writes_eq_canon _ _ _ (fun y => ⟨_, List.mem_cons_self .., View.mem_set_unit_zero zeros3 inb_S1x128x16_S1x128x16_0_0_0 y⟩),
      View.canon_cons_unit_zero zeros3]
    sl_unfold_run_names
    simp only [View.readAt_eq_ld, View.ld_unit_zero (S := S1x128x2) zeros3, View.ld_unit_zero (S := S6x16) zeros2,
      View.ld_unit_zero (S := S16) zeros1, View.ld_unit_zero (S := S16x16) zeros2, View.ld_unit_zero (S := S128x16) zeros2,
      View.readCov_unit_zero (S := S128x16) arg12.view zeros2 inb_S128x16_S128x16_0_0]
    rfl
  iexists _; isplitr
  swap; · iexact H9
  ipureintro
  sl_unfold_run_names
  rw [View.read_writes_eq_canon _ _ _ (fun y => ⟨_, List.mem_cons_self .., View.mem_set_unit_zero zeros2 inb_S128x16_S128x16_0_0 y⟩),
    View.canon_cons_unit_zero zeros2]
  sl_unfold_run_names
  simp only [View.readAt_eq_ld, View.ld_unit_zero (S := S1x128x2) zeros3, View.ld_unit_zero (S := S6x16) zeros2,
    View.ld_unit_zero (S := S16) zeros1, View.ld_unit_zero (S := S16x16) zeros2, View.ld_unit_zero (S := S128x16) zeros2]
  rfl

end Cert.Kernel.Hand

end
-- ==== Proof.KFrame.lean ====
/-
  The pipelined kernel's proof data and its body obligation: what every staging buffer and the accumulator scratch
  hold after the body at each of the 512 grid points.
-/
import proofs.«113326_j27135603376523_1_alg».proof.Proof.KBody
import proofs.«113326_j27135603376523_1_alg».proof.Proof.Gen.Kernel.Launch
import proofs.«113326_j27135603376523_1_alg».proof.Proof.Gen.Kernel.Skeleton
import proofs.«113326_j27135603376523_1_alg».proof.Proof.Gen.Kernel.Points
import Idealize.ShloMosaic.Lib.Pipeline.FrameBody
import Idealize.ShloMosaic.Lib.Pipeline.Kit
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays, the blocks, the accumulator point by point -/

/-- The TensorCore buffers when the region is entered: as launched (the region is all of the program). -/
abbrev V (c : Dev nD) (b : Ref sig .tc) : Buf (Elt F) ((c : Thread nD τ).loc b) := m ((c : Thread nD τ).loc b)

/-- Window `w`'s block at point `t`, read off its array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- One accumulator step at point `t`: the tile's partial sums, computed from the eight input blocks, added to `acc`. -/
def stepAt (c : Dev nD) (t : Fin cfg0.N) (acc : Vec F S128x16 .f32) : Vec F S128x16 .f32 :=
  accStep (iblk m c 0 t) (iblk m c 1 t) (iblk m c 2 t) (iblk m c 3 t) (iblk m c 4 t) (iblk m c 5 t) (iblk m c 6 t) (iblk m c 7 t) acc

/-- The accumulator scratch after point `n`: restarted from zero at the first context tile of each (batch, query tile),
    carried over from the point before otherwise. -/
def accAt (c : Dev nD) : (n : ℕ) → n < cfg0.N → Vec F S128x16 .f32
  | 0, hn => stepAt m c ⟨0, hn⟩ (k0_pay3 (F := F))
  | n + 1, hn => stepAt m c ⟨n + 1, hn⟩ (if (n + 1) % 8 = 0 then k0_pay3 (F := F) else accAt c n (Nat.lt_of_succ_lt hn))

theorem accAt_first (c : Dev nD) (t : Fin cfg0.N) (h : t.val % 8 = 0) :
    accAt m c t.val t.isLt = stepAt m c t (k0_pay3 (F := F)) := by
  obtain ⟨n, hn⟩ := t
  cases n with
  | zero => rfl
  | succ n =>
    show stepAt m c ⟨n + 1, hn⟩ (if (n + 1) % 8 = 0 then k0_pay3 (F := F) else accAt m c n (Nat.lt_of_succ_lt hn)) = _
    rw [if_pos h]

theorem accAt_next (c : Dev nD) (t : Fin cfg0.N) (h : ¬t.val % 8 = 0) :
    accAt m c t.val t.isLt = stepAt m c t (accAt m c (t.val - 1) (Nat.lt_of_le_of_lt (Nat.sub_le _ _) t.isLt)) := by
  obtain ⟨n, hn⟩ := t
  cases n with
  | zero => exact absurd (Nat.zero_mod _) h
  | succ n =>
    show stepAt m c ⟨n + 1, hn⟩ (if (n + 1) % 8 = 0 then k0_pay3 (F := F) else accAt m c n (Nat.lt_of_succ_lt hn)) = _
    rw [if_neg h]; rfl

/-! ## The conditions and the output window's idle points, over the grid -/

/-- The zeroing branch is taken at the points ≡ 0 (mod 8): the first context tile. -/
theorem hcond1 : ∀ t : Fin cfg0.N, cond1 (grid0.coords t) ↔ t.val % 8 = 0 :=
  (by decide +kernel : ∀ t : Fin grid0.N, cond1 (grid0.coords t) ↔ t.val % 8 = 0)
/-- The write-out branch is taken at the points ≡ 7 (mod 8): the last context tile. -/
theorem hcond2 : ∀ t : Fin cfg0.N, cond2 (grid0.coords t) ↔ t.val % 8 = 7 :=
  (by decide +kernel : ∀ t : Fin grid0.N, cond2 (grid0.coords t) ↔ t.val % 8 = 7)
/-- Elsewhere the output window is idle and its block is not written back. -/
theorem idle8 : ∀ t : Fin cfg0.N, ¬cond2 (grid0.coords t) → cfg0.idle 8 (grid0.coords t) = true :=
  (by decide +kernel : ∀ t : Fin grid0.N, ¬cond2 (grid0.coords t) → cfg0.idle 8 (grid0.coords t) = true)
theorem live8 : ∀ t : Fin cfg0.N, cond2 (grid0.coords t) → cfg0.idle 8 (grid0.coords t) = false :=
  (by decide +kernel : ∀ t : Fin grid0.N, cond2 (grid0.coords t) → cfg0.idle 8 (grid0.coords t) = false)
theorem noFlush8 : ∀ t : Fin cfg0.N, ¬cond2 (grid0.coords t) → (cfg0.win 8).flush t = false :=
  (by decide +kernel : ∀ t : Fin grid0.N, ¬cond2 (grid0.coords t) → win0_8.flush t = false)

/-! ## The scratch and the invariant -/

/-- The accumulator scratch as a memref. -/
abbrev scM : Memref sig .tc .vmem S128x16 .f32 := Memref.whole cc0_scratch0

/-- The core's scoped buffers outside the staging buffers are the scratch alone, at some contents. -/
theorem scopedRest_eq (c : Dev nD) :
    (Pipeline.scopedRest (Ix := Unit) (Name := ℕ) (U := UR sig nD τ) (Lvl := ℕ) (Val := Elt F) spec0 c : sProp 𝕄)
      = iprop(∃ d, owns (c : Thread nD τ) scM fullShare d) := by
  rw [scopedRest0_eq]; simp only [scM, owns_whole]; try rfl

/-- The invariant before position `n`: before the first point the scratch at anything; afterwards at the
    accumulator the point before left. -/
def PhiS (c : Dev nD) : (n : ℕ) → n ≤ cfg0.N → sProp 𝕄
  | 0, _ => Pipeline.scopedRest (Ix := Unit) (Name := ℕ) (U := UR sig nD τ) (Lvl := ℕ) (Val := Elt F) spec0 c
  | n + 1, hn => owns (c : Thread nD τ) scM fullShare (accAt m c n hn)

theorem PhiS_zero (c : Dev nD) (n : ℕ) (h : n ≤ cfg0.N) (hz : n = 0) :
    PhiS m c n h = Pipeline.scopedRest (Ix := Unit) (Name := ℕ) (U := UR sig nD τ) (Lvl := ℕ) (Val := Elt F) spec0 c := by
  subst hz; rfl
theorem PhiS_succ (c : Dev nD) (n : ℕ) (hn : n < cfg0.N) :
    PhiS m c (n + 1) hn = owns (c : Thread nD τ) scM fullShare (accAt m c n hn) := rfl
theorem PhiS_pos (c : Dev nD) (n : ℕ) (h : n ≤ cfg0.N) (hz : n ≠ 0) :
    PhiS m c n h = owns (c : Thread nD τ) scM fullShare (accAt m c (n - 1) (by omega)) := by
  cases n with
  | zero => exact absurd rfl hz
  | succ n => rfl

/-! ## The proof data -/

/-- The arrays as launched; after the body each input's buffer at its block and the output's at the scaled
    accumulator; the invariant `PhiS`; the two arrays that two windows each read are held half and half. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => k0_pay2 (accAt m c t.val t.isLt)
  Φ t := PhiS m c t.val (Nat.le_of_lt_succ t.isLt)
  q w := match w with
    | ⟨0, _⟩ => fullShare.left
    | ⟨1, _⟩ => fullShare.left
    | ⟨2, _⟩ => fullShare.right
    | ⟨3, _⟩ => fullShare.right
    | ⟨4, _⟩ => fullShare
    | ⟨5, _⟩ => fullShare
    | ⟨6, _⟩ => fullShare
    | ⟨7, _⟩ => fullShare
    | ⟨8, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = k0_pay2 (accAt m c t.val t.isLt) := by dsimp only [dats]

/-- Each input's current staging buffer holds its block at every point, fetched there or not. -/
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)
theorem before0_5 (c : Dev nD) (t : Fin cfg0.N) (d) : (dats m 0 c).before 5 t d = iblk m c 5 t :=
  ((dats m 0 c).before_in_eq_fetched 5 rfl (fun _ => rfl) (fun _ _ _ => rfl) (fun t => by rw [after0_5]; unfold Dat.blockOf iblk; rw [A_eq]; try rfl) t d).trans
    (by unfold Dat.fetched Dat.blockOf iblk; rw [A_eq]; try rfl)
theorem before0_6 (c : Dev nD) (t : Fin cfg0.N) (d) : (dats m 0 c).before 6 t d = iblk m c 6 t :=
  ((dats m 0 c).before_in_eq_fetched 6 rfl (fun _ => rfl) (fun _ _ _ => rfl) (fun t => by rw [after0_6]; unfold Dat.blockOf iblk; rw [A_eq]; try rfl) t d).trans
    (by unfold Dat.fetched Dat.blockOf iblk; rw [A_eq]; try rfl)
theorem before0_7 (c : Dev nD) (t : Fin cfg0.N) (d) : (dats m 0 c).before 7 t d = iblk m c 7 t :=
  ((dats m 0 c).before_in_eq_fetched 7 rfl (fun _ => rfl) (fun _ _ _ => rfl) (fun t => by rw [after0_7]; unfold Dat.blockOf iblk; rw [A_eq]; try rfl) t d).trans
    (by unfold Dat.fetched Dat.blockOf iblk; rw [A_eq]; try rfl)

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

theorem leaves0_0 (c : Dev nD) (t : Fin cfg0.N) :
    (dats m 0 c).leavesExact 0 t = owns (c : Thread nD τ) (st0_0 t) fullShare (iblk m c 0 t) := by
  rw [← after0_0]
theorem leaves0_1 (c : Dev nD) (t : Fin cfg0.N) :
    (dats m 0 c).leavesExact 1 t = owns (c : Thread nD τ) (st0_1 t) fullShare (iblk m c 1 t) := by
  rw [← after0_1]
theorem leaves0_2 (c : Dev nD) (t : Fin cfg0.N) :
    (dats m 0 c).leavesExact 2 t = owns (c : Thread nD τ) (st0_2 t) fullShare (iblk m c 2 t) := by
  rw [← after0_2]
theorem leaves0_3 (c : Dev nD) (t : Fin cfg0.N) :
    (dats m 0 c).leavesExact 3 t = owns (c : Thread nD τ) (st0_3 t) fullShare (iblk m c 3 t) := by
  rw [← after0_3]
theorem leaves0_4 (c : Dev nD) (t : Fin cfg0.N) :
    (dats m 0 c).leavesExact 4 t = owns (c : Thread nD τ) (st0_4 t) fullShare (iblk m c 4 t) := by
  rw [← after0_4]
theorem leaves0_5 (c : Dev nD) (t : Fin cfg0.N) :
    (dats m 0 c).leavesExact 5 t = owns (c : Thread nD τ) (st0_5 t) fullShare (iblk m c 5 t) := by
  rw [← after0_5]
theorem leaves0_6 (c : Dev nD) (t : Fin cfg0.N) :
    (dats m 0 c).leavesExact 6 t = owns (c : Thread nD τ) (st0_6 t) fullShare (iblk m c 6 t) := by
  rw [← after0_6]
theorem leaves0_7 (c : Dev nD) (t : Fin cfg0.N) :
    (dats m 0 c).leavesExact 7 t = owns (c : Thread nD τ) (st0_7 t) fullShare (iblk m c 7 t) := by
  rw [← after0_7]

set_option maxHeartbeats 4000000 in
/-- The body at any point. The inputs' buffers hold their blocks; the point's position among the eight context tiles
    says which of the three runs applies; the invariant hands over the scratch and takes it back at this point's
    accumulator; where the output window is idle its buffer is handed back as found. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7,
    leaves0_0, leaves0_1, leaves0_2, leaves0_3, leaves0_4, leaves0_5, leaves0_6, leaves0_7]
  rw [show (dats m 0 c).owesAt () t.succ = (dats m 0 c).owesAt () t.castSucc from rfl]
  rw [show (dats m 0 c).Φ t.succ = PhiS m c (t.val + 1) t.isLt from rfl, PhiS_succ]
  by_cases h0 : t.val % 8 = 0
  · have hc1 : cond1 (grid0.coords t) := (hcond1 t).mpr h0
    have hc2 : ¬cond2 (grid0.coords t) := fun h => by have := (hcond2 t).mp h; omega
    rw [Dat.leavesExact_idle (dats m 0 c) 8 t (idle8 t hc2) (noFlush8 t hc2), accAt_first m c t h0]
    unfold stepAt
    have hscr : (dats m 0 c).Φ t.castSucc ⊢ (iprop(∃ d, owns (c : Thread nD τ) scM fullShare d) : sProp 𝕄) := by
      rw [PhiS_castSucc m c t]
      by_cases hz : t.val = 0
      · rw [PhiS_zero m c _ _ hz, scopedRest_eq]
      · rw [PhiS_pos m c _ _ hz]; iintro H; iexists _; iexact H
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    ihave HS := hscr $$ HΦ
    iapply (runFirst c Set.univ (grid0.coords t) _ _ _ _ _ _ _ _ _ _ _ _ _ _ _ _ _ _ _ _ hc1 hc2
      (iblk m c 0 t) (iblk m c 1 t) (iblk m c 2 t) (iblk m c 3 t) (iblk m c 4 t) (iblk m c 5 t) (iblk m c 6 t) (iblk m c 7 t)
      ((dats m 0 c).before 8 t d8) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HS]; · iexact HS
    iintro ⟨H0, H1, H2, H3, H4, H5, H6, H7, H8, HS⟩
    isplitl [HS]; · iexact HS
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexists _; iexact H8
  · have hc1 : ¬cond1 (grid0.coords t) := fun h => h0 ((hcond1 t).mp h)
    have hz : t.val ≠ 0 := fun hz => h0 (by rw [hz])
    rw [PhiS_castSucc m c t, PhiS_pos m c _ _ hz, accAt_next m c t h0]
    unfold stepAt
    by_cases h7 : t.val % 8 = 7
    · have hc2 : cond2 (grid0.coords t) := (hcond2 t).mpr h7
      rw [show (dats m 0 c).leavesExact 8 t = owns (c : Thread nD τ) (st0_8 t) fullShare ((dats m 0 c).after 8 t) from by
        unfold Dat.leavesExact; rw [live8 t hc2], after0_8, accAt_next m c t h0]
      unfold stepAt
      iintro ⟨HS, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (runLast c Set.univ (grid0.coords t) _ _ _ _ _ _ _ _ _ _ _ _ _ _ _ _ _ _ _ _ hc1 hc2
        (iblk m c 0 t) (iblk m c 1 t) (iblk m c 2 t) (iblk m c 3 t) (iblk m c 4 t) (iblk m c 5 t) (iblk m c 6 t) (iblk m c 7 t)
        (accAt m c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HS]; · iexact HS
      iintro ⟨H0, H1, H2, H3, H4, H5, H6, H7, H8, HS⟩
      isplitl [HS]; · iexact HS
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    · have hc2 : ¬cond2 (grid0.coords t) := fun h => h7 ((hcond2 t).mp h)
      rw [Dat.leavesExact_idle (dats m 0 c) 8 t (idle8 t hc2) (noFlush8 t hc2)]
      iintro ⟨HS, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (runMid c Set.univ (grid0.coords t) _ _ _ _ _ _ _ _ _ _ _ _ _ _ _ _ _ _ _ _ hc1 hc2
        (iblk m c 0 t) (iblk m c 1 t) (iblk m c 2 t) (iblk m c 3 t) (iblk m c 4 t) (iblk m c 5 t) (iblk m c 6 t) (iblk m c 7 t)
        ((dats m 0 c).before 8 t d8) (accAt m c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS]; · iexact HS
      iintro ⟨H0, H1, H2, H3, H4, H5, H6, H7, H8, HS⟩
      isplitl [HS]; · iexact HS
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists _; iexact H8

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.KRun.lean ====
/-
  The launch: the pipelined kernel run from any memory, through the library's launch theorem for windows that
  share arrays.
-/
import proofs.«113326_j27135603376523_1_alg».proof.Proof.KFrame
import proofs.«113326_j27135603376523_1_alg».proof.Proof.Gen.Kernel.Launch
import proofs.«113326_j27135603376523_1_alg».proof.Proof.Gen.Kernel.Skeleton
import proofs.«113326_j27135603376523_1_alg».proof.Proof.Gen.Kernel.Points
import Idealize.ShloMosaic.Lib.Pipeline.FrameBody
import Idealize.ShloMosaic.Lib.Pipeline.Kit
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays at entry: two of them read through two windows each -/

/-- The windows' arrays as plain points-tos of the buffers behind them, each at its window's share. -/
theorem arrays_eq' (c : Dev nD) (G : (w : Fin cfg0.W) → Buf (Elt F) ((cfg0.win w).arr.view.loc (c : Thread nD τ))) :
    ((dats m 0 c).arrays G : sProp 𝕄)
      = bigSep Finset.univ fun w => (((c : Thread nD τ).loc (Pipeline.arrRef spec0 w)) ↦{(dats m 0 c).share w} G w : sProp 𝕄) := by
  unfold Dat.arrays
  exact bigSep_congr fun w _ => by rw [(arr_whole0 w).set_eq_univ]

/-- The pipeline's arrays at entry, window by window: the x array and the y array are each read by two windows, half
    and half; the weights, the biases and the result are each held whole by their one window. -/
theorem arrays_entry (c : Dev nD) :
    ((dats m 0 c).arrays ((dats m 0 c).arrAt · 0) : sProp 𝕄)
      = iprop((((c : Thread nD τ).loc main_arg0) ↦{fullShare.left} V m c main_arg0)
          ∗ (((c : Thread nD τ).loc main_arg1) ↦{fullShare.left} V m c main_arg1)
          ∗ (((c : Thread nD τ).loc main_arg0) ↦{fullShare.right} V m c main_arg0)
          ∗ (((c : Thread nD τ).loc main_arg1) ↦{fullShare.right} V m c main_arg1)
          ∗ (((c : Thread nD τ).loc main_arg3) ↦{fullShare} V m c main_arg3)
          ∗ (((c : Thread nD τ).loc main_arg4) ↦{fullShare} V m c main_arg4)
          ∗ (((c : Thread nD τ).loc main_arg5) ↦{fullShare} V m c main_arg5)
          ∗ (((c : Thread nD τ).loc main_arg6) ↦{fullShare} V m c main_arg6)
          ∗ (((c : Thread nD τ).loc main_v0) ↦{fullShare} V m c main_v0)) := by
  rw [arrays_eq', bigSep_W0]; rfl

/-- The distinct buffers behind the windows' arrays, one by one. -/
theorem arrBufs_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_arg0) ↦{fullShare} W main_arg0)
          ∗ (((c : Thread nD τ).loc main_arg1) ↦{fullShare} W main_arg1)
          ∗ (((c : Thread nD τ).loc main_arg3) ↦{fullShare} W main_arg3)
          ∗ (((c : Thread nD τ).loc main_arg4) ↦{fullShare} W main_arg4)
          ∗ (((c : Thread nD τ).loc main_arg5) ↦{fullShare} W main_arg5)
          ∗ (((c : Thread nD τ).loc main_arg6) ↦{fullShare} W main_arg6)
          ∗ (((c : Thread nD τ).loc main_v0) ↦{fullShare} W main_v0)) :=
  bigSep_eq_bigSepL_of_eq [main_arg0, main_arg1, main_arg3, main_arg4, main_arg5, main_arg6, main_v0] (by decide) (by decide) _

/-- The buffers behind the windows' arrays, each whole at the full share, make the pipeline's arrays at entry: the
    full share of the x array splits into the two halves its two windows hold, and the y array's likewise. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrays_entry, arrBufs_eq]
  iintro ⟨H0, H1, H3, H4, H5, H6, H7⟩
  ihave H0 := (pointsTo_share (PosShare.mem_left_op_right fullShare)).1 $$ H0
  icases H0 with ⟨H0a, H0b⟩
  ihave H1 := (pointsTo_share (PosShare.mem_left_op_right fullShare)).1 $$ H1
  icases H1 with ⟨H1a, H1b⟩
  isplitl [H0a]; · iexact H0a
  isplitl [H1a]; · iexact H1a
  isplitl [H0b]; · iexact H0b
  isplitl [H1b]; · iexact H1b
  isplitl [H3]; · iexact H3
  isplitl [H4]; · iexact H4
  isplitl [H5]; · iexact H5
  isplitl [H6]; · iexact H6
  iexact H7

/-! ## The run -/

/-- What the run establishes: every window's array at what the library computes from the proof data after the last
    write-back, and the one argument array no window reads (the unused target inputs) as launched. -/
def RunPost (r : PUnit × MemSt nD τ sig (Elt F)) : Prop :=
  ∀ c : Dev nD, (∀ w, r.2.mem ((cfg0.win w).arr.view.loc (c : Thread nD τ)) = (dats m 0 c).arrAt w cfg0.N)
    ∧ r.2.mem ((c : Thread nD τ).loc main_arg2) = m ((c : Thread nD τ).loc main_arg2)

set_option backward.isDefEq.respectTransparency.types false in
/-- At the compiled mesh, for any values, from any memory with zero counters: every weakly fair execution of the
    program terminates, nothing faulting, in a state satisfying `RunPost`. -/
theorem run_main : θ_run defs (onTc (τ := τ) (main (F := F))) ⟨m, fun _ => 0, ρ⟩ (RunPost m) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0)
    (howed := fun _ _ => rfl)
    (u₀ := initOf (Pipeline.cells cfgs cellOf_inj) (Pipeline.launchToks cfgs cellOf_inj)) (hu₀ := BI.Entails.refl _)
    (V := V m)
    (hmain := fun c Q => by
      simp only [main, Prog.lift, Prog.bind_op, Prog.bind_ret]
      iintro ⟨Hk, Hb⟩; iapply Hk; iexact Hb)
    (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by iintro H; isplitr; · iempintro
                       iexact H)
    (hin := fun c => by
      rw [show (dats m 0 c).Φ 0 = PhiS m c 0 (Nat.zero_le _) from rfl, PhiS_zero m c 0 _ rfl]
      iintro ⟨-, H⟩; iexact H)
    (hout := fun c => by
      rw [show (dats m 0 c).Φ (Fin.last cfg0.N) = PhiS m c cfg0.N (Nat.le_refl _) from rfl,
        PhiS_pos m c _ _ (by rw [show cfg0.N = 512 from N_0]; decide), scopedRest_eq]
      iintro H; isplitr; · iempintro
      iexists _; iexact H)
    (QY := fun c s => ∀ b ∈ Pipeline.restRefs sig spec0, s.mem ((c : Thread nD τ).loc b) = V m c b)
    (hY := fun c s' => by
      iintro ⟨-, HU, HSI⟩
      unfold Pipeline.unscopedRest
      imodintro
      iapply (pointsTo_read_all (Pipeline.restRefs sig spec0) (fun b => (c : Thread nD τ).loc b) (V m c) s')
      isplitl [HU] <;> iassumption)
    (hQ := fun s h c => ⟨(h c).1, (h c).2 main_arg2 (Pipeline.mem_restRefs_of main_arg2 rfl (by decide))⟩)

/-- The frame: the program runs to the end and its seven argument arrays end as launched — the six that windows read
    are never written back (they are inputs), the seventh is not touched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).1 0).trans (((dats m 0 c).arrAt_in 0 rfl _).trans (A_eq m c 0)),
     ((h c).1 1).trans (((dats m 0 c).arrAt_in 1 rfl _).trans (A_eq m c 1)),
     (h c).2,
     ((h c).1 4).trans (((dats m 0 c).arrAt_in 4 rfl _).trans (A_eq m c 4)),
     ((h c).1 5).trans (((dats m 0 c).arrAt_in 5 rfl _).trans (A_eq m c 5)),
     ((h c).1 6).trans (((dats m 0 c).arrAt_in 6 rfl _).trans (A_eq m c 6)),
     ((h c).1 7).trans (((dats m 0 c).arrAt_in 7 rfl _).trans (A_eq m c 7))⟩)
    (run_main m ρ)

end Cert.Kernel.Hand

end
-- ==== Proof.KIBody.lean ====
/-
  The kernel body at one grid point, case by case: what it leaves in the accumulator scratch and in the output's
  staging buffer, from what it finds in the input blocks and the scratch.
-/
import proofs.«113326_j27135603376523_1_alg».proof.Proof.Gen.KernelIdeal.Launch
import proofs.«113326_j27135603376523_1_alg».proof.Proof.Gen.KernelIdeal.Skeleton
import proofs.«113326_j27135603376523_1_alg».proof.Proof.Gen.KernelIdeal.Points
import Idealize.ShloMosaic.Lib.Pipeline.FrameBody
import Idealize.ShloMosaic.Lib.Pipeline.Kit
import Idealize.ShloMosaic.Lib.Ring
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The body's two conditions and its accumulator step

The grid is (batch, query tile, context tile) = 8 × 8 × 8; the body runs at every point. At the first context tile
it zeroes the accumulator scratch; at every point it adds the tile's partial sums to it; at the last context tile
it scales the accumulator into the output block. -/

/-- "This is the first context tile": the condition of the zeroing branch, as the body computes it. -/
abbrev cond1 (i : grid0.Coords) : Prop := (Scalar.cmpi .ne (Scalar.extui (Scalar.cmpi .eq (BitVec.ofNat 32 (i 2).val) 0#32)) 0#32) = 1#1
/-- "This is the last context tile": the condition of the write-out branch. -/
abbrev cond2 (i : grid0.Coords) : Prop := k0_cond2 i = 1#1

/-- The accumulator after one point, from the input blocks and the accumulator before it. -/
def accStep (x0 x1 x2 x3 : Vec F S1x128x2 .f32) (w1 : Vec F S6x16 .f32) (b1 : Vec F S16 .f32) (w2 : Vec F S16x16 .f32)
    (b2 : Vec F S16 .f32) (acc : Vec F S128x16 .f32) : Vec F S128x16 .f32 :=
  k0_pay1 (k0_pay4 x0 x1 x2 x3 w1) (k0_pay5 b1) w2 b2 acc

theorem zeros1 : (![0] : Fin 1 → Nat) = fun _ => 0 := funext fun a => by fin_cases a <;> rfl
theorem zeros2 : (![0, 0] : Fin 2 → Nat) = fun _ => 0 := funext fun a => by fin_cases a <;> rfl
theorem zeros3 : (![0, 0, 0] : Fin 3 → Nat) = fun _ => 0 := funext fun a => by fin_cases a <;> rfl

set_option maxHeartbeats 2000000 in
/-- A middle context tile: neither branch is taken; the scratch goes from `acc` to `accStep … acc`, the output's
    staging buffer is not touched. -/
theorem runMid (c : Dev nD) (E : Set ℕ) (i : grid0.Coords)
    (arg3 : Memref sig .tc .vmem S1x128x2 .f32) (harg3 : arg3.IsWhole) (arg4 : Memref sig .tc .vmem S1x128x2 .f32) (harg4 : arg4.IsWhole)
    (arg5 : Memref sig .tc .vmem S1x128x2 .f32) (harg5 : arg5.IsWhole) (arg6 : Memref sig .tc .vmem S1x128x2 .f32) (harg6 : arg6.IsWhole)
    (arg7 : Memref sig .tc .vmem S6x16 .f32) (harg7 : arg7.IsWhole) (arg8 : Memref sig .tc .vmem S16 .f32) (harg8 : arg8.IsWhole)
    (arg9 : Memref sig .tc .vmem S16x16 .f32) (harg9 : arg9.IsWhole) (arg10 : Memref sig .tc .vmem S16 .f32) (harg10 : arg10.IsWhole)
    (arg11 : Memref sig .tc .vmem S1x128x16 .f32) (harg11 : arg11.IsWhole) (arg12 : Memref sig .tc .vmem S128x16 .f32) (harg12 : arg12.IsWhole)
    (hc1 : ¬cond1 i) (hc2 : ¬cond2 i)
    (x0 x1 x2 x3 : Vec F S1x128x2 .f32) (w1 : Vec F S6x16 .f32) (b1 : Vec F S16 .f32) (w2 : Vec F S16x16 .f32) (b2 : Vec F S16 .f32)
    (xo : Vec F S1x128x16 .f32) (acc : Vec F S128x16 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare w1 ∗ owns (c : Thread nD τ) arg8 fullShare b1
        ∗ owns (c : Thread nD τ) arg9 fullShare w2 ∗ owns (c : Thread nD τ) arg10 fullShare b2 ∗ owns (c : Thread nD τ) arg11 fullShare xo
        ∗ owns (c : Thread nD τ) arg12 fullShare acc
        ∗ (iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare w1 ∗ owns (c : Thread nD τ) arg8 fullShare b1
        ∗ owns (c : Thread nD τ) arg9 fullShare w2 ∗ owns (c : Thread nD τ) arg10 fullShare b2 ∗ owns (c : Thread nD τ) arg11 fullShare xo
        ∗ owns (c : Thread nD τ) arg12 fullShare (accStep x0 x1 x2 x3 w1 b1 w2 b2 acc)) -∗ K ⟨⟩))
      ⊢ wp frame (wpE (defs₀ (F := F)) Variants.none c none) E
          (cc0_kernel i arg3 harg3 arg4 harg4 arg5 harg5 arg6 harg6 arg7 harg7 arg8 harg8 arg9 harg9 arg10 harg10 arg11 harg11 arg12 harg12) K := by
  simp only [cc0_kernel_eq_skeleton]; unfold cc0_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  subst hf0 hf1 hf2 hf3 hf4 hf5 hf6 hf7 hf8 hf9
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  rw [View.read_writes_eq_canon _ _ _ (fun y => ⟨_, List.mem_cons_self .., View.mem_set_unit_zero zeros2 inb_S128x16_S128x16_0_0 y⟩),
    View.canon_cons_unit_zero zeros2]
  sl_unfold_run_names
  simp only [View.readAt_eq_ld, View.ld_unit_zero (S := S1x128x2) zeros3, View.ld_unit_zero (S := S6x16) zeros2,
    View.ld_unit_zero (S := S16) zeros1, View.ld_unit_zero (S := S16x16) zeros2, View.ld_unit_zero (S := S128x16) zeros2]
  rfl

set_option maxHeartbeats 2000000 in
/-- The first context tile: the zeroing branch is taken; the scratch, whatever it held, ends at `accStep … 0`. -/
theorem runFirst (c : Dev nD) (E : Set ℕ) (i : grid0.Coords)
    (arg3 : Memref sig .tc .vmem S1x128x2 .f32) (harg3 : arg3.IsWhole) (arg4 : Memref sig .tc .vmem S1x128x2 .f32) (harg4 : arg4.IsWhole)
    (arg5 : Memref sig .tc .vmem S1x128x2 .f32) (harg5 : arg5.IsWhole) (arg6 : Memref sig .tc .vmem S1x128x2 .f32) (harg6 : arg6.IsWhole)
    (arg7 : Memref sig .tc .vmem S6x16 .f32) (harg7 : arg7.IsWhole) (arg8 : Memref sig .tc .vmem S16 .f32) (harg8 : arg8.IsWhole)
    (arg9 : Memref sig .tc .vmem S16x16 .f32) (harg9 : arg9.IsWhole) (arg10 : Memref sig .tc .vmem S16 .f32) (harg10 : arg10.IsWhole)
    (arg11 : Memref sig .tc .vmem S1x128x16 .f32) (harg11 : arg11.IsWhole) (arg12 : Memref sig .tc .vmem S128x16 .f32) (harg12 : arg12.IsWhole)
    (hc1 : cond1 i) (hc2 : ¬cond2 i)
    (x0 x1 x2 x3 : Vec F S1x128x2 .f32) (w1 : Vec F S6x16 .f32) (b1 : Vec F S16 .f32) (w2 : Vec F S16x16 .f32) (b2 : Vec F S16 .f32)
    (xo : Vec F S1x128x16 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare w1 ∗ owns (c : Thread nD τ) arg8 fullShare b1
        ∗ owns (c : Thread nD τ) arg9 fullShare w2 ∗ owns (c : Thread nD τ) arg10 fullShare b2 ∗ owns (c : Thread nD τ) arg11 fullShare xo
        ∗ (∃ d, owns (c : Thread nD τ) arg12 fullShare d)
        ∗ (iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare w1 ∗ owns (c : Thread nD τ) arg8 fullShare b1
        ∗ owns (c : Thread nD τ) arg9 fullShare w2 ∗ owns (c : Thread nD τ) arg10 fullShare b2 ∗ owns (c : Thread nD τ) arg11 fullShare xo
        ∗ owns (c : Thread nD τ) arg12 fullShare (accStep x0 x1 x2 x3 w1 b1 w2 b2 (k0_pay3 (F := F)))) -∗ K ⟨⟩))
      ⊢ wp frame (wpE (defs₀ (F := F)) Variants.none c none) E
          (cc0_kernel i arg3 harg3 arg4 harg4 arg5 harg5 arg6 harg6 arg7 harg7 arg8 harg8 arg9 harg9 arg10 harg10 arg11 harg11 arg12 harg12) K := by
  simp only [cc0_kernel_eq_skeleton]; unfold cc0_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  rw [View.read_writes_eq_canon _ _ _ (fun y => ⟨_, List.mem_cons_self .., View.mem_set_unit_zero zeros2 inb_S128x16_S128x16_0_0 y⟩),
    View.canon_cons_unit_zero zeros2]
  sl_unfold_run_names
  simp only [View.readAt_eq_ld, View.ld_unit_zero (S := S1x128x2) zeros3, View.ld_unit_zero (S := S6x16) zeros2,
    View.ld_unit_zero (S := S16) zeros1, View.ld_unit_zero (S := S16x16) zeros2, View.ld_unit_zero (S := S128x16) zeros2,
    View.readCov_unit_zero (S := S128x16) arg12.view zeros2 inb_S128x16_S128x16_0_0]
  rfl

set_option maxHeartbeats 2000000 in
/-- The last context tile: the write-out branch is taken; the scratch goes from `acc` to `accStep … acc` and the
    output's staging buffer, whatever it held, ends at that scaled (`k0_pay2`). -/
theorem runLast (c : Dev nD) (E : Set ℕ) (i : grid0.Coords)
    (arg3 : Memref sig .tc .vmem S1x128x2 .f32) (harg3 : arg3.IsWhole) (arg4 : Memref sig .tc .vmem S1x128x2 .f32) (harg4 : arg4.IsWhole)
    (arg5 : Memref sig .tc .vmem S1x128x2 .f32) (harg5 : arg5.IsWhole) (arg6 : Memref sig .tc .vmem S1x128x2 .f32) (harg6 : arg6.IsWhole)
    (arg7 : Memref sig .tc .vmem S6x16 .f32) (harg7 : arg7.IsWhole) (arg8 : Memref sig .tc .vmem S16 .f32) (harg8 : arg8.IsWhole)
    (arg9 : Memref sig .tc .vmem S16x16 .f32) (harg9 : arg9.IsWhole) (arg10 : Memref sig .tc .vmem S16 .f32) (harg10 : arg10.IsWhole)
    (arg11 : Memref sig .tc .vmem S1x128x16 .f32) (harg11 : arg11.IsWhole) (arg12 : Memref sig .tc .vmem S128x16 .f32) (harg12 : arg12.IsWhole)
    (hc1 : ¬cond1 i) (hc2 : cond2 i)
    (x0 x1 x2 x3 : Vec F S1x128x2 .f32) (w1 : Vec F S6x16 .f32) (b1 : Vec F S16 .f32) (w2 : Vec F S16x16 .f32) (b2 : Vec F S16 .f32)
    (acc : Vec F S128x16 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare w1 ∗ owns (c : Thread nD τ) arg8 fullShare b1
        ∗ owns (c : Thread nD τ) arg9 fullShare w2 ∗ owns (c : Thread nD τ) arg10 fullShare b2 ∗ (∃ d, owns (c : Thread nD τ) arg11 fullShare d)
        ∗ owns (c : Thread nD τ) arg12 fullShare acc
        ∗ (iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare w1 ∗ owns (c : Thread nD τ) arg8 fullShare b1
        ∗ owns (c : Thread nD τ) arg9 fullShare w2 ∗ owns (c : Thread nD τ) arg10 fullShare b2 ∗ owns (c : Thread nD τ) arg11 fullShare (k0_pay2 (accStep x0 x1 x2 x3 w1 b1 w2 b2 acc))
        ∗ owns (c : Thread nD τ) arg12 fullShare (accStep x0 x1 x2 x3 w1 b1 w2 b2 acc)) -∗ K ⟨⟩))
      ⊢ wp frame (wpE (defs₀ (F := F)) Variants.none c none) E
          (cc0_kernel i arg3 harg3 arg4 harg4 arg5 harg5 arg6 harg6 arg7 harg7 arg8 harg8 arg9 harg9 arg10 harg10 arg11 harg11 arg12 harg12) K := by
  simp only [cc0_kernel_eq_skeleton]; unfold cc0_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, Hk⟩
  subst hf0 hf1 hf2 hf3 hf4 hf5 hf6 hf7 hf9
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    rw [View.read_writes_eq_canon _ _ _ (fun y => ⟨_, List.mem_cons_self .., View.mem_set_unit_zero zeros3 inb_S1x128x16_S1x128x16_0_0_0 y⟩),
      View.canon_cons_unit_zero zeros3]
    sl_unfold_run_names
    simp only [View.readAt_eq_ld, View.ld_unit_zero (S := S1x128x2) zeros3, View.ld_unit_zero (S := S6x16) zeros2,
      View.ld_unit_zero (S := S16) zeros1, View.ld_unit_zero (S := S16x16) zeros2, View.ld_unit_zero (S := S128x16) zeros2,
      View.readCov_unit_zero (S := S128x16) arg12.view zeros2 inb_S128x16_S128x16_0_0]
    rfl
  iexists _; isplitr
  swap; · iexact H9
  ipureintro
  sl_unfold_run_names
  rw [View.read_writes_eq_canon _ _ _ (fun y => ⟨_, List.mem_cons_self .., View.mem_set_unit_zero zeros2 inb_S128x16_S128x16_0_0 y⟩),
    View.canon_cons_unit_zero zeros2]
  sl_unfold_run_names
  simp only [View.readAt_eq_ld, View.ld_unit_zero (S := S1x128x2) zeros3, View.ld_unit_zero (S := S6x16) zeros2,
    View.ld_unit_zero (S := S16) zeros1, View.ld_unit_zero (S := S16x16) zeros2, View.ld_unit_zero (S := S128x16) zeros2]
  rfl

end Cert.KernelIdeal.Hand

end
-- ==== Proof.KIFrame.lean ====
/-
  The pipelined kernel's proof data and its body obligation: what every staging buffer and the accumulator scratch
  hold after the body at each of the 512 grid points.
-/
import proofs.«113326_j27135603376523_1_alg».proof.Proof.KIBody
import proofs.«113326_j27135603376523_1_alg».proof.Proof.Gen.KernelIdeal.Launch
import proofs.«113326_j27135603376523_1_alg».proof.Proof.Gen.KernelIdeal.Skeleton
import proofs.«113326_j27135603376523_1_alg».proof.Proof.Gen.KernelIdeal.Points
import Idealize.ShloMosaic.Lib.Pipeline.FrameBody
import Idealize.ShloMosaic.Lib.Pipeline.Kit
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays, the blocks, the accumulator point by point -/

/-- The TensorCore buffers when the region is entered: as launched (the region is all of the program). -/
abbrev V (c : Dev nD) (b : Ref sig .tc) : Buf (Elt F) ((c : Thread nD τ).loc b) := m ((c : Thread nD τ).loc b)

/-- Window `w`'s block at point `t`, read off its array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- One accumulator step at point `t`: the tile's partial sums, computed from the eight input blocks, added to `acc`. -/
def stepAt (c : Dev nD) (t : Fin cfg0.N) (acc : Vec F S128x16 .f32) : Vec F S128x16 .f32 :=
  accStep (iblk m c 0 t) (iblk m c 1 t) (iblk m c 2 t) (iblk m c 3 t) (iblk m c 4 t) (iblk m c 5 t) (iblk m c 6 t) (iblk m c 7 t) acc

/-- The accumulator scratch after point `n`: restarted from zero at the first context tile of each (batch, query tile),
    carried over from the point before otherwise. -/
def accAt (c : Dev nD) : (n : ℕ) → n < cfg0.N → Vec F S128x16 .f32
  | 0, hn => stepAt m c ⟨0, hn⟩ (k0_pay3 (F := F))
  | n + 1, hn => stepAt m c ⟨n + 1, hn⟩ (if (n + 1) % 8 = 0 then k0_pay3 (F := F) else accAt c n (Nat.lt_of_succ_lt hn))

theorem accAt_first (c : Dev nD) (t : Fin cfg0.N) (h : t.val % 8 = 0) :
    accAt m c t.val t.isLt = stepAt m c t (k0_pay3 (F := F)) := by
  obtain ⟨n, hn⟩ := t
  cases n with
  | zero => rfl
  | succ n =>
    show stepAt m c ⟨n + 1, hn⟩ (if (n + 1) % 8 = 0 then k0_pay3 (F := F) else accAt m c n (Nat.lt_of_succ_lt hn)) = _
    rw [if_pos h]

theorem accAt_next (c : Dev nD) (t : Fin cfg0.N) (h : ¬t.val % 8 = 0) :
    accAt m c t.val t.isLt = stepAt m c t (accAt m c (t.val - 1) (Nat.lt_of_le_of_lt (Nat.sub_le _ _) t.isLt)) := by
  obtain ⟨n, hn⟩ := t
  cases n with
  | zero => exact absurd (Nat.zero_mod _) h
  | succ n =>
    show stepAt m c ⟨n + 1, hn⟩ (if (n + 1) % 8 = 0 then k0_pay3 (F := F) else accAt m c n (Nat.lt_of_succ_lt hn)) = _
    rw [if_neg h]; rfl

/-! ## The conditions and the output window's idle points, over the grid -/

/-- The zeroing branch is taken at the points ≡ 0 (mod 8): the first context tile. -/
theorem hcond1 : ∀ t : Fin cfg0.N, cond1 (grid0.coords t) ↔ t.val % 8 = 0 :=
  (by decide +kernel : ∀ t : Fin grid0.N, cond1 (grid0.coords t) ↔ t.val % 8 = 0)
/-- The write-out branch is taken at the points ≡ 7 (mod 8): the last context tile. -/
theorem hcond2 : ∀ t : Fin cfg0.N, cond2 (grid0.coords t) ↔ t.val % 8 = 7 :=
  (by decide +kernel : ∀ t : Fin grid0.N, cond2 (grid0.coords t) ↔ t.val % 8 = 7)
/-- Elsewhere the output window is idle and its block is not written back. -/
theorem idle8 : ∀ t : Fin cfg0.N, ¬cond2 (grid0.coords t) → cfg0.idle 8 (grid0.coords t) = true :=
  (by decide +kernel : ∀ t : Fin grid0.N, ¬cond2 (grid0.coords t) → cfg0.idle 8 (grid0.coords t) = true)
theorem live8 : ∀ t : Fin cfg0.N, cond2 (grid0.coords t) → cfg0.idle 8 (grid0.coords t) = false :=
  (by decide +kernel : ∀ t : Fin grid0.N, cond2 (grid0.coords t) → cfg0.idle 8 (grid0.coords t) = false)
theorem noFlush8 : ∀ t : Fin cfg0.N, ¬cond2 (grid0.coords t) → (cfg0.win 8).flush t = false :=
  (by decide +kernel : ∀ t : Fin grid0.N, ¬cond2 (grid0.coords t) → win0_8.flush t = false)

/-! ## The scratch and the invariant -/

/-- The accumulator scratch as a memref. -/
abbrev scM : Memref sig .tc .vmem S128x16 .f32 := Memref.whole cc0_scratch0

/-- The core's scoped buffers outside the staging buffers are the scratch alone, at some contents. -/
theorem scopedRest_eq (c : Dev nD) :
    (Pipeline.scopedRest (Ix := Unit) (Name := ℕ) (U := UR sig nD τ) (Lvl := ℕ) (Val := Elt F) spec0 c : sProp 𝕄)
      = iprop(∃ d, owns (c : Thread nD τ) scM fullShare d) := by
  rw [scopedRest0_eq]; simp only [scM, owns_whole]; try rfl

/-- The invariant before position `n`: before the first point the scratch at anything; afterwards at the
    accumulator the point before left. -/
def PhiS (c : Dev nD) : (n : ℕ) → n ≤ cfg0.N → sProp 𝕄
  | 0, _ => Pipeline.scopedRest (Ix := Unit) (Name := ℕ) (U := UR sig nD τ) (Lvl := ℕ) (Val := Elt F) spec0 c
  | n + 1, hn => owns (c : Thread nD τ) scM fullShare (accAt m c n hn)

theorem PhiS_zero (c : Dev nD) (n : ℕ) (h : n ≤ cfg0.N) (hz : n = 0) :
    PhiS m c n h = Pipeline.scopedRest (Ix := Unit) (Name := ℕ) (U := UR sig nD τ) (Lvl := ℕ) (Val := Elt F) spec0 c := by
  subst hz; rfl
theorem PhiS_succ (c : Dev nD) (n : ℕ) (hn : n < cfg0.N) :
    PhiS m c (n + 1) hn = owns (c : Thread nD τ) scM fullShare (accAt m c n hn) := rfl
theorem PhiS_pos (c : Dev nD) (n : ℕ) (h : n ≤ cfg0.N) (hz : n ≠ 0) :
    PhiS m c n h = owns (c : Thread nD τ) scM fullShare (accAt m c (n - 1) (by omega)) := by
  cases n with
  | zero => exact absurd rfl hz
  | succ n => rfl

/-! ## The proof data -/

/-- The arrays as launched; after the body each input's buffer at its block and the output's at the scaled
    accumulator; the invariant `PhiS`; the two arrays that two windows each read are held half and half. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => k0_pay2 (accAt m c t.val t.isLt)
  Φ t := PhiS m c t.val (Nat.le_of_lt_succ t.isLt)
  q w := match w with
    | ⟨0, _⟩ => fullShare.left
    | ⟨1, _⟩ => fullShare.left
    | ⟨2, _⟩ => fullShare.right
    | ⟨3, _⟩ => fullShare.right
    | ⟨4, _⟩ => fullShare
    | ⟨5, _⟩ => fullShare
    | ⟨6, _⟩ => fullShare
    | ⟨7, _⟩ => fullShare
    | ⟨8, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = k0_pay2 (accAt m c t.val t.isLt) := by dsimp only [dats]

/-- Each input's current staging buffer holds its block at every point, fetched there or not. -/
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)
theorem before0_5 (c : Dev nD) (t : Fin cfg0.N) (d) : (dats m 0 c).before 5 t d = iblk m c 5 t :=
  ((dats m 0 c).before_in_eq_fetched 5 rfl (fun _ => rfl) (fun _ _ _ => rfl) (fun t => by rw [after0_5]; unfold Dat.blockOf iblk; rw [A_eq]; try rfl) t d).trans
    (by unfold Dat.fetched Dat.blockOf iblk; rw [A_eq]; try rfl)
theorem before0_6 (c : Dev nD) (t : Fin cfg0.N) (d) : (dats m 0 c).before 6 t d = iblk m c 6 t :=
  ((dats m 0 c).before_in_eq_fetched 6 rfl (fun _ => rfl) (fun _ _ _ => rfl) (fun t => by rw [after0_6]; unfold Dat.blockOf iblk; rw [A_eq]; try rfl) t d).trans
    (by unfold Dat.fetched Dat.blockOf iblk; rw [A_eq]; try rfl)
theorem before0_7 (c : Dev nD) (t : Fin cfg0.N) (d) : (dats m 0 c).before 7 t d = iblk m c 7 t :=
  ((dats m 0 c).before_in_eq_fetched 7 rfl (fun _ => rfl) (fun _ _ _ => rfl) (fun t => by rw [after0_7]; unfold Dat.blockOf iblk; rw [A_eq]; try rfl) t d).trans
    (by unfold Dat.fetched Dat.blockOf iblk; rw [A_eq]; try rfl)

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

theorem leaves0_0 (c : Dev nD) (t : Fin cfg0.N) :
    (dats m 0 c).leavesExact 0 t = owns (c : Thread nD τ) (st0_0 t) fullShare (iblk m c 0 t) := by
  rw [← after0_0]
theorem leaves0_1 (c : Dev nD) (t : Fin cfg0.N) :
    (dats m 0 c).leavesExact 1 t = owns (c : Thread nD τ) (st0_1 t) fullShare (iblk m c 1 t) := by
  rw [← after0_1]
theorem leaves0_2 (c : Dev nD) (t : Fin cfg0.N) :
    (dats m 0 c).leavesExact 2 t = owns (c : Thread nD τ) (st0_2 t) fullShare (iblk m c 2 t) := by
  rw [← after0_2]
theorem leaves0_3 (c : Dev nD) (t : Fin cfg0.N) :
    (dats m 0 c).leavesExact 3 t = owns (c : Thread nD τ) (st0_3 t) fullShare (iblk m c 3 t) := by
  rw [← after0_3]
theorem leaves0_4 (c : Dev nD) (t : Fin cfg0.N) :
    (dats m 0 c).leavesExact 4 t = owns (c : Thread nD τ) (st0_4 t) fullShare (iblk m c 4 t) := by
  rw [← after0_4]
theorem leaves0_5 (c : Dev nD) (t : Fin cfg0.N) :
    (dats m 0 c).leavesExact 5 t = owns (c : Thread nD τ) (st0_5 t) fullShare (iblk m c 5 t) := by
  rw [← after0_5]
theorem leaves0_6 (c : Dev nD) (t : Fin cfg0.N) :
    (dats m 0 c).leavesExact 6 t = owns (c : Thread nD τ) (st0_6 t) fullShare (iblk m c 6 t) := by
  rw [← after0_6]
theorem leaves0_7 (c : Dev nD) (t : Fin cfg0.N) :
    (dats m 0 c).leavesExact 7 t = owns (c : Thread nD τ) (st0_7 t) fullShare (iblk m c 7 t) := by
  rw [← after0_7]

set_option maxHeartbeats 4000000 in
/-- The body at any point. The inputs' buffers hold their blocks; the point's position among the eight context tiles
    says which of the three runs applies; the invariant hands over the scratch and takes it back at this point's
    accumulator; where the output window is idle its buffer is handed back as found. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7,
    leaves0_0, leaves0_1, leaves0_2, leaves0_3, leaves0_4, leaves0_5, leaves0_6, leaves0_7]
  rw [show (dats m 0 c).owesAt () t.succ = (dats m 0 c).owesAt () t.castSucc from rfl]
  rw [show (dats m 0 c).Φ t.succ = PhiS m c (t.val + 1) t.isLt from rfl, PhiS_succ]
  by_cases h0 : t.val % 8 = 0
  · have hc1 : cond1 (grid0.coords t) := (hcond1 t).mpr h0
    have hc2 : ¬cond2 (grid0.coords t) := fun h => by have := (hcond2 t).mp h; omega
    rw [Dat.leavesExact_idle (dats m 0 c) 8 t (idle8 t hc2) (noFlush8 t hc2), accAt_first m c t h0]
    unfold stepAt
    have hscr : (dats m 0 c).Φ t.castSucc ⊢ (iprop(∃ d, owns (c : Thread nD τ) scM fullShare d) : sProp 𝕄) := by
      rw [PhiS_castSucc m c t]
      by_cases hz : t.val = 0
      · rw [PhiS_zero m c _ _ hz, scopedRest_eq]
      · rw [PhiS_pos m c _ _ hz]; iintro H; iexists _; iexact H
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    ihave HS := hscr $$ HΦ
    iapply (runFirst c Set.univ (grid0.coords t) _ _ _ _ _ _ _ _ _ _ _ _ _ _ _ _ _ _ _ _ hc1 hc2
      (iblk m c 0 t) (iblk m c 1 t) (iblk m c 2 t) (iblk m c 3 t) (iblk m c 4 t) (iblk m c 5 t) (iblk m c 6 t) (iblk m c 7 t)
      ((dats m 0 c).before 8 t d8) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HS]; · iexact HS
    iintro ⟨H0, H1, H2, H3, H4, H5, H6, H7, H8, HS⟩
    isplitl [HS]; · iexact HS
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexists _; iexact H8
  · have hc1 : ¬cond1 (grid0.coords t) := fun h => h0 ((hcond1 t).mp h)
    have hz : t.val ≠ 0 := fun hz => h0 (by rw [hz])
    rw [PhiS_castSucc m c t, PhiS_pos m c _ _ hz, accAt_next m c t h0]
    unfold stepAt
    by_cases h7 : t.val % 8 = 7
    · have hc2 : cond2 (grid0.coords t) := (hcond2 t).mpr h7
      rw [show (dats m 0 c).leavesExact 8 t = owns (c : Thread nD τ) (st0_8 t) fullShare ((dats m 0 c).after 8 t) from by
        unfold Dat.leavesExact; rw [live8 t hc2], after0_8, accAt_next m c t h0]
      unfold stepAt
      iintro ⟨HS, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (runLast c Set.univ (grid0.coords t) _ _ _ _ _ _ _ _ _ _ _ _ _ _ _ _ _ _ _ _ hc1 hc2
        (iblk m c 0 t) (iblk m c 1 t) (iblk m c 2 t) (iblk m c 3 t) (iblk m c 4 t) (iblk m c 5 t) (iblk m c 6 t) (iblk m c 7 t)
        (accAt m c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HS]; · iexact HS
      iintro ⟨H0, H1, H2, H3, H4, H5, H6, H7, H8, HS⟩
      isplitl [HS]; · iexact HS
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    · have hc2 : ¬cond2 (grid0.coords t) := fun h => h7 ((hcond2 t).mp h)
      rw [Dat.leavesExact_idle (dats m 0 c) 8 t (idle8 t hc2) (noFlush8 t hc2)]
      iintro ⟨HS, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (runMid c Set.univ (grid0.coords t) _ _ _ _ _ _ _ _ _ _ _ _ _ _ _ _ _ _ _ _ hc1 hc2
        (iblk m c 0 t) (iblk m c 1 t) (iblk m c 2 t) (iblk m c 3 t) (iblk m c 4 t) (iblk m c 5 t) (iblk m c 6 t) (iblk m c 7 t)
        ((dats m 0 c).before 8 t d8) (accAt m c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS]; · iexact HS
      iintro ⟨H0, H1, H2, H3, H4, H5, H6, H7, H8, HS⟩
      isplitl [HS]; · iexact HS
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists _; iexact H8

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KIRun.lean ====
/-
  The launch: the pipelined kernel run from any memory, through the library's launch theorem for windows that
  share arrays.
-/
import proofs.«113326_j27135603376523_1_alg».proof.Proof.KIFrame
import proofs.«113326_j27135603376523_1_alg».proof.Proof.Gen.KernelIdeal.Launch
import proofs.«113326_j27135603376523_1_alg».proof.Proof.Gen.KernelIdeal.Skeleton
import proofs.«113326_j27135603376523_1_alg».proof.Proof.Gen.KernelIdeal.Points
import Idealize.ShloMosaic.Lib.Pipeline.FrameBody
import Idealize.ShloMosaic.Lib.Pipeline.Kit
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays at entry: two of them read through two windows each -/

/-- The windows' arrays as plain points-tos of the buffers behind them, each at its window's share. -/
theorem arrays_eq' (c : Dev nD) (G : (w : Fin cfg0.W) → Buf (Elt F) ((cfg0.win w).arr.view.loc (c : Thread nD τ))) :
    ((dats m 0 c).arrays G : sProp 𝕄)
      = bigSep Finset.univ fun w => (((c : Thread nD τ).loc (Pipeline.arrRef spec0 w)) ↦{(dats m 0 c).share w} G w : sProp 𝕄) := by
  unfold Dat.arrays
  exact bigSep_congr fun w _ => by rw [(arr_whole0 w).set_eq_univ]

/-- The pipeline's arrays at entry, window by window: the x array and the y array are each read by two windows, half
    and half; the weights, the biases and the result are each held whole by their one window. -/
theorem arrays_entry (c : Dev nD) :
    ((dats m 0 c).arrays ((dats m 0 c).arrAt · 0) : sProp 𝕄)
      = iprop((((c : Thread nD τ).loc main_arg0) ↦{fullShare.left} V m c main_arg0)
          ∗ (((c : Thread nD τ).loc main_arg1) ↦{fullShare.left} V m c main_arg1)
          ∗ (((c : Thread nD τ).loc main_arg0) ↦{fullShare.right} V m c main_arg0)
          ∗ (((c : Thread nD τ).loc main_arg1) ↦{fullShare.right} V m c main_arg1)
          ∗ (((c : Thread nD τ).loc main_arg3) ↦{fullShare} V m c main_arg3)
          ∗ (((c : Thread nD τ).loc main_arg4) ↦{fullShare} V m c main_arg4)
          ∗ (((c : Thread nD τ).loc main_arg5) ↦{fullShare} V m c main_arg5)
          ∗ (((c : Thread nD τ).loc main_arg6) ↦{fullShare} V m c main_arg6)
          ∗ (((c : Thread nD τ).loc main_v0) ↦{fullShare} V m c main_v0)) := by
  rw [arrays_eq', bigSep_W0]; rfl

/-- The distinct buffers behind the windows' arrays, one by one. -/
theorem arrBufs_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_arg0) ↦{fullShare} W main_arg0)
          ∗ (((c : Thread nD τ).loc main_arg1) ↦{fullShare} W main_arg1)
          ∗ (((c : Thread nD τ).loc main_arg3) ↦{fullShare} W main_arg3)
          ∗ (((c : Thread nD τ).loc main_arg4) ↦{fullShare} W main_arg4)
          ∗ (((c : Thread nD τ).loc main_arg5) ↦{fullShare} W main_arg5)
          ∗ (((c : Thread nD τ).loc main_arg6) ↦{fullShare} W main_arg6)
          ∗ (((c : Thread nD τ).loc main_v0) ↦{fullShare} W main_v0)) :=
  bigSep_eq_bigSepL_of_eq [main_arg0, main_arg1, main_arg3, main_arg4, main_arg5, main_arg6, main_v0] (by decide) (by decide) _

/-- The buffers behind the windows' arrays, each whole at the full share, make the pipeline's arrays at entry: the
    full share of the x array splits into the two halves its two windows hold, and the y array's likewise. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrays_entry, arrBufs_eq]
  iintro ⟨H0, H1, H3, H4, H5, H6, H7⟩
  ihave H0 := (pointsTo_share (PosShare.mem_left_op_right fullShare)).1 $$ H0
  icases H0 with ⟨H0a, H0b⟩
  ihave H1 := (pointsTo_share (PosShare.mem_left_op_right fullShare)).1 $$ H1
  icases H1 with ⟨H1a, H1b⟩
  isplitl [H0a]; · iexact H0a
  isplitl [H1a]; · iexact H1a
  isplitl [H0b]; · iexact H0b
  isplitl [H1b]; · iexact H1b
  isplitl [H3]; · iexact H3
  isplitl [H4]; · iexact H4
  isplitl [H5]; · iexact H5
  isplitl [H6]; · iexact H6
  iexact H7

/-! ## The run -/

/-- What the run establishes: every window's array at what the library computes from the proof data after the last
    write-back, and the one argument array no window reads (the unused target inputs) as launched. -/
def RunPost (r : PUnit × MemSt nD τ sig (Elt F)) : Prop :=
  ∀ c : Dev nD, (∀ w, r.2.mem ((cfg0.win w).arr.view.loc (c : Thread nD τ)) = (dats m 0 c).arrAt w cfg0.N)
    ∧ r.2.mem ((c : Thread nD τ).loc main_arg2) = m ((c : Thread nD τ).loc main_arg2)

set_option backward.isDefEq.respectTransparency.types false in
/-- At the compiled mesh, for any values, from any memory with zero counters: every weakly fair execution of the
    program terminates, nothing faulting, in a state satisfying `RunPost`. -/
theorem run_main : θ_run defs (onTc (τ := τ) (main (F := F))) ⟨m, fun _ => 0, ρ⟩ (RunPost m) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0)
    (howed := fun _ _ => rfl)
    (u₀ := initOf (Pipeline.cells cfgs cellOf_inj) (Pipeline.launchToks cfgs cellOf_inj)) (hu₀ := BI.Entails.refl _)
    (V := V m)
    (hmain := fun c Q => by
      simp only [main, Prog.lift, Prog.bind_op, Prog.bind_ret]
      iintro ⟨Hk, Hb⟩; iapply Hk; iexact Hb)
    (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by iintro H; isplitr; · iempintro
                       iexact H)
    (hin := fun c => by
      rw [show (dats m 0 c).Φ 0 = PhiS m c 0 (Nat.zero_le _) from rfl, PhiS_zero m c 0 _ rfl]
      iintro ⟨-, H⟩; iexact H)
    (hout := fun c => by
      rw [show (dats m 0 c).Φ (Fin.last cfg0.N) = PhiS m c cfg0.N (Nat.le_refl _) from rfl,
        PhiS_pos m c _ _ (by rw [show cfg0.N = 512 from N_0]; decide), scopedRest_eq]
      iintro H; isplitr; · iempintro
      iexists _; iexact H)
    (QY := fun c s => ∀ b ∈ Pipeline.restRefs sig spec0, s.mem ((c : Thread nD τ).loc b) = V m c b)
    (hY := fun c s' => by
      iintro ⟨-, HU, HSI⟩
      unfold Pipeline.unscopedRest
      imodintro
      iapply (pointsTo_read_all (Pipeline.restRefs sig spec0) (fun b => (c : Thread nD τ).loc b) (V m c) s')
      isplitl [HU] <;> iassumption)
    (hQ := fun s h c => ⟨(h c).1, (h c).2 main_arg2 (Pipeline.mem_restRefs_of main_arg2 rfl (by decide))⟩)

/-- The frame: the program runs to the end and its seven argument arrays end as launched — the six that windows read
    are never written back (they are inputs), the seventh is not touched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).1 0).trans (((dats m 0 c).arrAt_in 0 rfl _).trans (A_eq m c 0)),
     ((h c).1 1).trans (((dats m 0 c).arrAt_in 1 rfl _).trans (A_eq m c 1)),
     (h c).2,
     ((h c).1 4).trans (((dats m 0 c).arrAt_in 4 rfl _).trans (A_eq m c 4)),
     ((h c).1 5).trans (((dats m 0 c).arrAt_in 5 rfl _).trans (A_eq m c 5)),
     ((h c).1 6).trans (((dats m 0 c).arrAt_in 6 rfl _).trans (A_eq m c 6)),
     ((h c).1 7).trans (((dats m 0 c).arrAt_in 7 rfl _).trans (A_eq m c 7))⟩)
    (run_main m ρ)

end Cert.KernelIdeal.Hand

end
-- ==== Proof.KIIndex.lean ====
/-
  The block index of every window at every grid point, in closed form. The grid is (batch, query tile, context tile)
  = 8 × 8 × 8, point t ↔ (t / 64, t / 8 mod 8, t mod 8): the two query windows and the output window sit at block
  (batch, query tile, 0), the two context windows at (batch, context tile, 0), the four weight windows at block 0.
-/
import proofs.«113326_j27135603376523_1_alg».proof.Proof.Gen.KernelIdeal.Launch

noncomputable section

namespace Cert.KernelIdeal.HandValue

open Cert.KernelIdeal Cert.KernelIdeal.Gen
open Idealize.ShloMosaic

/-- The query windows (x and y at the query tile). -/
theorem idx_qry : ∀ t : Fin cfg0.N,
    win0_0.index t (0 : Fin 3) = t.val / 64 ∧ win0_0.index t (1 : Fin 3) = t.val / 8 % 8 ∧ win0_0.index t (2 : Fin 3) = 0
    ∧ win0_1.index t (0 : Fin 3) = t.val / 64 ∧ win0_1.index t (1 : Fin 3) = t.val / 8 % 8 ∧ win0_1.index t (2 : Fin 3) = 0 :=
  (by decide +kernel : ∀ t : Fin grid0.N, _)

/-- The context windows (x and y at the context tile). -/
theorem idx_ctx : ∀ t : Fin cfg0.N,
    win0_2.index t (0 : Fin 3) = t.val / 64 ∧ win0_2.index t (1 : Fin 3) = t.val % 8 ∧ win0_2.index t (2 : Fin 3) = 0
    ∧ win0_3.index t (0 : Fin 3) = t.val / 64 ∧ win0_3.index t (1 : Fin 3) = t.val % 8 ∧ win0_3.index t (2 : Fin 3) = 0 :=
  (by decide +kernel : ∀ t : Fin grid0.N, _)

/-- The weight windows: the whole array at every point. -/
theorem idx_wts : ∀ t : Fin cfg0.N,
    win0_4.index t (0 : Fin 2) = 0 ∧ win0_4.index t (1 : Fin 2) = 0 ∧ win0_5.index t (0 : Fin 1) = 0
    ∧ win0_6.index t (0 : Fin 2) = 0 ∧ win0_6.index t (1 : Fin 2) = 0 ∧ win0_7.index t (0 : Fin 1) = 0 :=
  (by decide +kernel : ∀ t : Fin grid0.N, _)

/-- The output window. -/
theorem idx_out : ∀ t : Fin cfg0.N,
    win0_8.index t (0 : Fin 3) = t.val / 64 ∧ win0_8.index t (1 : Fin 3) = t.val / 8 % 8 ∧ win0_8.index t (2 : Fin 3) = 0 :=
  (by decide +kernel : ∀ t : Fin grid0.N, _)

end Cert.KernelIdeal.HandValue

end
-- ==== Proof.Spec.lean ====
/-
  The function both programs compute, stated once over the argument arrays.

  For a batch b, a query row n and a context row m, the hidden layer's pre-activation at unit k is

      z b n m k = (y[b,n]·W1[4..5,k] − x[b,n]·W1[0..1,k]) + (x[b,m]·W1[0..1,k] + y[b,m]·W1[2..3,k]) + b1[k]

  — the first linear layer of the concatenated features [x_m − x_n, y_m, y_n] split into the part that depends
  on the query row and the part that depends on the context row.  The output is the mean over the 1024 context
  rows of the second layer applied to relu z:

      out b n o = (∑ m, (∑ k, max (z b n m k) 0 · W2[k,o]) + b2[o]) · (1/1024).
-/
import Idealize.ShloMosaic.PureOps.Ideal
import Idealize.ShloMosaic.PureOps.Ideal.Laws
import Idealize.ShloMosaic.Lib.ValueIdx

noncomputable section

open scoped BigOperators

namespace Cert.Deepset

open Idealize.ShloMosaic Idealize.ShloMosaic.ValueIdx

/-- The shapes of the argument arrays and of the result. -/
abbrev SXY : Shape := ⟨3, ![8, 1024, 2]⟩
abbrev SW1 : Shape := ⟨2, ![6, 16]⟩
abbrev SV : Shape := ⟨1, ![16]⟩
abbrev SW2 : Shape := ⟨2, ![16, 16]⟩
abbrev SO : Shape := ⟨3, ![8, 1024, 16]⟩

/-- Row `f` of the `j`-th two-row band of the 6 × 16 first-layer matrix: row `2 j + f`. -/
def w1row (j : Fin 3) (f : Fin 2) : Fin 6 := ⟨2 * j.val + f.val, by omega⟩

/-- The part of the first layer that depends on the context row `m`: `x[b,m]·W1[0..1,k] + y[b,m]·W1[2..3,k]`. -/
def ctxPart (X Y : SXY.Idx → EReal) (W1 : SW1.Idx → EReal) (b : Fin 8) (m : Fin 1024) (k : Fin 16) : EReal :=
  (∑ f : Fin 2, X (ix3 b m f) * W1 (ix2 (w1row 0 f) k)) + (∑ f : Fin 2, Y (ix3 b m f) * W1 (ix2 (w1row 1 f) k))

/-- The part that depends on the query row `n`: `y[b,n]·W1[4..5,k] − x[b,n]·W1[0..1,k]`. -/
def qryPart (X Y : SXY.Idx → EReal) (W1 : SW1.Idx → EReal) (b : Fin 8) (n : Fin 1024) (k : Fin 16) : EReal :=
  (∑ f : Fin 2, Y (ix3 b n f) * W1 (ix2 (w1row 2 f) k)) - (∑ f : Fin 2, X (ix3 b n f) * W1 (ix2 (w1row 0 f) k))

/-- The hidden layer's pre-activation. -/
def hidden (X Y : SXY.Idx → EReal) (W1 : SW1.Idx → EReal) (B1 : SV.Idx → EReal)
    (b : Fin 8) (n m : Fin 1024) (k : Fin 16) : EReal :=
  (qryPart X Y W1 b n k + ctxPart X Y W1 b m k) + B1 (ix1 k)

/-- The second layer on the rectified hidden units, for one (query, context) pair. -/
def phi (Z : Fin 8 → Fin 1024 → Fin 1024 → Fin 16 → EReal) (W2 : SW2.Idx → EReal) (B2 : SV.Idx → EReal)
    (b : Fin 8) (n m : Fin 1024) (o : Fin 16) : EReal :=
  (∑ k : Fin 16, max (Z b n m k) 0 * W2 (ix2 k o)) + B2 (ix1 o)

/-- The mean over the context rows, as the sum times 1/1024. -/
def pool (Z : Fin 8 → Fin 1024 → Fin 1024 → Fin 16 → EReal) (W2 : SW2.Idx → EReal) (B2 : SV.Idx → EReal) :
    SO.Idx → EReal :=
  fun i => (∑ m : Fin 1024, phi Z W2 B2 (i 0) (i 1) m (i 2)) * ((1 / 1024 : ℝ) : EReal)

/-- The whole function of the argument arrays. -/
def result (X Y : SXY.Idx → EReal) (W1 : SW1.Idx → EReal) (B1 : SV.Idx → EReal) (W2 : SW2.Idx → EReal)
    (B2 : SV.Idx → EReal) : SO.Idx → EReal :=
  pool (hidden X Y W1 B1) W2 B2

/-- The single-precision pattern 0x3A800000 is 2⁻¹⁰ = 1/1024 exactly. -/
theorem ofBits_inv1024 : Ideal.ofBits .f32 0x3A800000#32 = ((1 / 1024 : ℝ) : EReal) := by
  simp [Ideal.ofBits, Ideal.ieee, -EReal.coe_mul]; norm_num

/-- The single-precision pattern 0x44800000 is 1024 exactly. -/
theorem ofBits_1024 : Ideal.ofBits .f32 0x44800000#32 = ((1024 : ℝ) : EReal) := by
  simp [Ideal.ofBits, Ideal.ieee, -EReal.coe_mul]; norm_num

end Cert.Deepset

end
-- ==== Proof.PayLayout.lean ====
/-
  Layout operations read at an index given by coordinates, for the shapes this kernel meets: a vector viewed as
  [1, 1, a]; a matrix [a, b] viewed as [a, 1, b]; a rank-3 array [a, b, c] flattened to [a·b, c] and back (row
  r = p·b + q); the three broadcasts into [a, b, c] along a unit axis; and the narrowing to bf16, which is the identity on
  extended reals.
-/
import Idealize.ShloMosaic.Lib.ValueIdx
import Idealize.ShloMosaic.Lib.Pipeline.Value
import Idealize.ShloMosaic.Lib.ValueLayout

noncomputable section

open scoped BigOperators

namespace Cert.KPay

open Idealize.ShloMosaic Idealize.ShloMosaic.ValueIdx

variable {α : Type}

/-- A vector of length a cast to [1, 1, a] reads, at (u, v, i), the vector at i. -/
theorem shapeCast_a_11a_apply {a : ℕ} (x : (⟨1, ![a]⟩ : Shape).Idx → α)
    (h : (⟨1, ![a]⟩ : Shape).ShapeCasts ⟨3, ![1, 1, a]⟩) (u v : Fin 1) (i : Fin a) :
    shapeCast ⟨3, ![1, 1, a]⟩ x h (ix3 u v i) = x (ix1 i) :=
  shapeCast_apply x h _ _ (by
    have hu : u.val = 0 := by omega
    have hv : v.val = 0 := by omega
    rw [Shape.rowMajor_val_three, Shape.rowMajor_val_one]
    show i.val = (u.val * 1 + v.val) * a + i.val
    rw [hu, hv]; simp)

/-- An [a, b] matrix cast to [a, 1, b] reads, at (i, u, j), the matrix at (i, j). -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An [a, b, c] array cast to [a * b, c] reads, at (r, k) with r = p * b + q, the array at (p, q, k). -/
theorem shapeCast_abc_mc_apply {a b c m : ℕ} (x : (⟨3, ![a, b, c]⟩ : Shape).Idx → α)
    (h : (⟨3, ![a, b, c]⟩ : Shape).ShapeCasts ⟨2, ![m, c]⟩) (p : Fin a) (q : Fin b) (k : Fin c) (r : Fin m)
    (hr : r.val = p.val * b + q.val) :
    shapeCast ⟨2, ![m, c]⟩ x h (ix2 r k) = x (ix3 p q k) :=
  shapeCast_apply x h _ _ (by
    rw [Shape.rowMajor_val_three, Shape.rowMajor_val_two]
    show (p.val * b + q.val) * c + k.val = r.val * c + k.val
    rw [hr])

/-- An [m, c] matrix cast to [a, b, c] reads, at (p, q, k), the matrix at (r, k) with r = p * b + q. -/
theorem shapeCast_mc_abc_apply {a b c m : ℕ} (x : (⟨2, ![m, c]⟩ : Shape).Idx → α)
    (h : (⟨2, ![m, c]⟩ : Shape).ShapeCasts ⟨3, ![a, b, c]⟩) (p : Fin a) (q : Fin b) (k : Fin c) (r : Fin m)
    (hr : r.val = p.val * b + q.val) :
    shapeCast ⟨3, ![a, b, c]⟩ x h (ix3 p q k) = x (ix2 r k) :=
  shapeCast_apply x h _ _ (by
    rw [Shape.rowMajor_val_three, Shape.rowMajor_val_two]
    show r.val * c + k.val = (p.val * b + q.val) * c + k.val
    rw [hr])

/-- An [a, 1, c] array broadcast to [a, b, c] reads, at (p, q, k), the operand at (p, 0, k). -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (q : Fin b) (k : Fin c) :
    broadcastTo ⟨3, ![a, b, c]⟩ v h (ix3 p q k) = v (ix3 p (0 : Fin 1) k) := by
  refine broadcastTo_apply v h (ix3 p q k) (ix3 p (0 : Fin 1) k) fun ax => ?_
  match ax with
  | ⟨0, _⟩ =>
    show p.val = if a = 1 then 0 else p.val
    split
    · have := p.isLt; omega
    · rfl
  | ⟨1, _⟩ => rfl
  | ⟨2, _⟩ =>
    show k.val = if c = 1 then 0 else k.val
    split
    · have := k.isLt; omega
    · rfl

/-- A [1, b, c] array broadcast to [a, b, c] reads, at (p, q, k), the operand at (0, q, k). -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (q : Fin b) (k : Fin c) :
    broadcastTo ⟨3, ![a, b, c]⟩ v h (ix3 p q k) = v (ix3 (0 : Fin 1) q k) := by
  refine broadcastTo_apply v h (ix3 p q k) (ix3 (0 : Fin 1) q k) fun ax => ?_
  match ax with
  | ⟨0, _⟩ => rfl
  | ⟨1, _⟩ =>
    show q.val = if b = 1 then 0 else q.val
    split
    · have := q.isLt; omega
    · rfl
  | ⟨2, _⟩ =>
    show k.val = if c = 1 then 0 else k.val
    split
    · have := k.isLt; omega
    · rfl

/-- A [1, 1, c] array broadcast to [a, b, c] reads, at (p, q, k), the operand at (0, 0, k). -/
theorem broadcastTo_11c_abc_apply {a b c : ℕ} (v : (⟨3, ![1, 1, c]⟩ : Shape).Idx → α)
    (h : (⟨3, ![1, 1, c]⟩ : Shape).Broadcasts ⟨3, ![a, b, c]⟩) (p : Fin a) (q : Fin b) (k : Fin c) :
    broadcastTo ⟨3, ![a, b, c]⟩ v h (ix3 p q k) = v (ix3 (0 : Fin 1) (0 : Fin 1) k) := by
  refine broadcastTo_apply v h (ix3 p q k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

/-- Narrowing single precision to bf16 is the identity on extended reals. -/
theorem trunc_bf16_apply {s : Shape} (a : FVec Ideal s .f32) (h : FTy.bits .bf16 < FTy.bits .f32) (i : s.Idx) :
    (truncf .bf16 a h : FVec Ideal s .bf16) i = a i := rfl

end Cert.KPay

end
-- ==== Proof.PaySmall.lean ====
/-
  The three small payloads of the kernel body read at an index: the accumulator's initial value (zero), the first
  layer's bias viewed as [1, 1, 16], and the stored output (the accumulator times 1/1024).
-/
import proofs.«113326_j27135603376523_1_alg».proof.Proof.Gen.KernelIdeal.Skeleton
import proofs.«113326_j27135603376523_1_alg».proof.Proof.Spec
import proofs.«113326_j27135603376523_1_alg».proof.Proof.PayLayout
import Idealize.ShloMosaic.PureOps.Ideal.Laws

noncomputable section

open scoped BigOperators

namespace Cert.KPay

open Idealize.ShloMosaic Idealize.ShloMosaic.ValueIdx Cert.KernelIdeal Cert.KernelIdeal.Gen

/-- The accumulator's initial value is zero everywhere. -/
theorem pay3_apply (p : Fin 128) (o : Fin 16) : k0_pay3 (F := Ideal) (ix2 p o) = 0 := by
  unfold k0_pay3
  refine (congrFun (shapeCast_self _ _) (ix2 p o)).trans ?_
  exact Ideal.ofBits_zero_f32

/-- The first layer's bias viewed as [1, 1, 16]. -/
theorem pay5_apply (b1 : Vec Ideal S16 .f32) (k : Fin 16) : k0_pay5 b1 (ix3 (0 : Fin 1) (0 : Fin 1) k) = b1 (ix1 k) := by
  unfold k0_pay5
  exact shapeCast_a_11a_apply b1 _ 0 0 k

/-- The stored output: the accumulator times 1/1024. -/
theorem pay2_apply (acc : Vec Ideal S128x16 .f32) (p : Fin 128) (o : Fin 16) :
    k0_pay2 acc (ix3 (0 : Fin 1) p o) = acc (ix2 p o) * ((1 / 1024 : ℝ) : EReal) := by
  unfold k0_pay2
  refine (shapeCast_ab_1ab_apply _ _ 0 p o).trans ?_
  exact congrArg (acc (ix2 p o) * ·) Cert.Deepset.ofBits_inv1024

end Cert.KPay

end
-- ==== Proof.LibMatmul.lean ====
/-
  A plain matrix product read at an index. For the dimension numbers of an M×K by K×N product (contract the left
  operand's second axis with the right operand's first), the contraction's sum at output index (p, q), which the
  library states over the contraction shape's own index type, is the textbook sum over k : Fin K of L[p, k] · R[k, q].
-/
import Idealize.ShloMosaic.PureOps.Ideal
import Idealize.ShloMosaic.PureOps.Ideal.Laws
import Idealize.ShloMosaic.Lib.ValueIdx

noncomputable section

open scoped BigOperators

namespace Cert.Bridge.LibMatmul

open Idealize.ShloMosaic Idealize.ShloMosaic.ValueIdx

variable {M K N : Nat}

theorem plain_rank : (DotDims.plain M K N).contr.rank = 1 := rfl
theorem plain_size : (DotDims.plain M K N).contr.size ⟨0, by rw [plain_rank]; exact Nat.one_pos⟩ = K := rfl

/-- The left operand's index at output (p, q) and contraction coordinate k is (p, k). -/
theorem plain_lhsIdx (p : Fin M) (q : Fin N) (k : Fin K) :
    (DotDims.plain M K N).lhsIdx (ix2 p q) ((contrEquiv1 (DotDims.plain M K N) K plain_rank plain_size).symm k) = ix2 p k := by
  funext a
  refine Fin.ext ?_
  match a with
  | ⟨0, _⟩ => rfl
  | ⟨1, _⟩ =>
    refine ((DotDims.plain M K N).lhsIdx_val_of_single (cl := 1) rfl (ix2 p q) _).trans ?_
    exact contrEquiv1_symm_val (DotDims.plain M K N) K plain_rank plain_size k

/-- The right operand's index at output (p, q) and contraction coordinate k is (k, q). -/
theorem plain_rhsIdx (p : Fin M) (q : Fin N) (k : Fin K) :
    (DotDims.plain M K N).rhsIdx (ix2 p q) ((contrEquiv1 (DotDims.plain M K N) K plain_rank plain_size).symm k) = ix2 k q := by
  funext a
  refine Fin.ext ?_
  match a with
  | ⟨0, _⟩ =>
    refine ((DotDims.plain M K N).rhsIdx_val_of_single (cr := 0) rfl (ix2 p q) _).trans ?_
    exact contrEquiv1_symm_val (DotDims.plain M K N) K plain_rank plain_size k
  | ⟨1, _⟩ => rfl

/-- The contraction's sum, over the textbook index. -/
theorem plain_sum {α : Type} [AddCommMonoid α] [Mul α] (L : (⟨2, ![M, K]⟩ : Shape).Idx → α) (R : (⟨2, ![K, N]⟩ : Shape).Idx → α)
    (p : Fin M) (q : Fin N) :
    ∑ k : (DotDims.plain M K N).contr.Idx, L ((DotDims.plain M K N).lhsIdx (ix2 p q) k) * R ((DotDims.plain M K N).rhsIdx (ix2 p q) k)
      = ∑ k : Fin K, L (ix2 p k) * R (ix2 k q) := by
  rw [← Equiv.sum_comp (contrEquiv1 (DotDims.plain M K N) K plain_rank plain_size).symm]
  refine Finset.sum_congr rfl fun k _ => ?_
  rw [plain_lhsIdx, plain_rhsIdx]

/-- A matrix unit's product into the zero accumulator, at the extended reals, read at (p, q). -/
theorem matmul_zero_apply {φ₁ φ₂ : FTy} (prec : Option ContractPrecision)
    (L : FVec Ideal ⟨2, ![M, K]⟩ φ₁) (R : FVec Ideal ⟨2, ![K, N]⟩ φ₂) (p : Fin M) (q : Fin N) :
    FloatOps.matmul (DotDims.plain M K N) prec L R (constant ⟨2, ![M, N]⟩ .f32 0x00000000#32) (ix2 p q)
      = ∑ k : Fin K, L (ix2 p k) * R (ix2 k q) :=
  (Ideal.matmul_constant_zero_apply _ prec L R (ix2 p q)).trans (plain_sum L R p q)

/-- The host's product, at the extended reals, read at (p, q). -/
theorem dotGeneral_apply {φ₁ φ₂ : FTy} (prec : Option ContractPrecision) (sched : HostSchedule)
    (L : FVec Ideal ⟨2, ![M, K]⟩ φ₁) (R : FVec Ideal ⟨2, ![K, N]⟩ φ₂) (p : Fin M) (q : Fin N) :
    FloatOps.dotGeneral (DotDims.plain M K N) prec sched L R (ix2 p q) = ∑ k : Fin K, L (ix2 p k) * R (ix2 k q) :=
  (Ideal.dotGeneral_apply _ prec sched L R (ix2 p q)).trans (plain_sum L R p q)

end Cert.Bridge.LibMatmul

end
-- ==== Proof.PayAcc.lean ====
/-
  The accumulator's update read at an index. For the block's query row p and output unit o the body adds to the
  accumulator the sum, over the block's 128 context rows q, of the second layer applied to the rectified hidden units:

      acc[p, o] + ∑ q, ((∑ k, max (h[p, q, k] + b1[k]) 0 · W2[k, o]) + b2[o]).

  The body flattens the [128, 128, 16] array of rectified units to [16384, 16] (row p·128 + q), multiplies by W2,
  adds the bias row, restores the three axes and sums over the middle one.
-/
import proofs.«113326_j27135603376523_1_alg».proof.Proof.Gen.KernelIdeal.Skeleton
import proofs.«113326_j27135603376523_1_alg».proof.Proof.Spec
import proofs.«113326_j27135603376523_1_alg».proof.Proof.LibMatmul
import proofs.«113326_j27135603376523_1_alg».proof.Proof.PayLayout
import Idealize.ShloMosaic.PureOps.Ideal.Laws

noncomputable section

open scoped BigOperators

namespace Cert.KPay

open Idealize.ShloMosaic Idealize.ShloMosaic.ValueIdx Cert.KernelIdeal Cert.KernelIdeal.Gen

/-- The second layer's product, into the zero accumulator, read at (r, o). -/
theorem matmul16_apply (L : FVec Ideal S16384x16 .bf16) (R : FVec Ideal S16x16 .bf16) (r : Fin 16384) (o : Fin 16) :
    matmul dot_S16384x16_S16x16_S16384x16_1_0_0_1_n_n none L R (constant (F := Ideal) S16384x16 .f32 0x00000000#32) (ix2 r o)
      = ∑ k : Fin 16, L (ix2 r k) * R (ix2 k o) :=
  Cert.Bridge.LibMatmul.matmul_zero_apply none L R r o

/-- The sum over the middle axis of a [128, 128, 16] array, read at (p, o). -/
theorem sumAxis1_apply (src : FVec Ideal S128x128x16 .f32) (h : S128x128x16.Reduces [1] S128x16)
    (hφ : FKind.Formats .f32) (hacc : (0x00000000#32 : BitVec 32) = FKind.add.neutral .f32 hφ) (p : Fin 128) (o : Fin 16) :
    multiReduction .add [1] S128x16 src 0x00000000#32 h hφ hacc (ix2 p o) = ∑ q : Fin 128, src (ix3 p q o) := by
  refine (Ideal.multiReduction_add_single src _ h hφ hacc (ix2 p o)).trans ?_
  refine Finset.sum_congr rfl fun q _ => congrArg src ?_
  funext a
  refine Fin.ext ?_
  match a with
  | ⟨0, _⟩ => rfl
  | ⟨1, _⟩ => rfl
  | ⟨2, _⟩ => rfl

/-- The accumulator's update: the accumulator plus, summed over the 128 context rows of the block, the second layer
    applied to the rectified hidden units. -/
theorem pay1_apply (v33 : FVec Ideal S128x128x16 .f32) (v34 : FVec Ideal S1x1x16 .f32) (w2 : Vec Ideal S16x16 .f32)
    (b2 : Vec Ideal S16 .f32) (acc : Vec Ideal S128x16 .f32) (p : Fin 128) (o : Fin 16) :
    k0_pay1 v33 v34 w2 b2 acc (ix2 p o)
      = acc (ix2 p o) + ∑ q : Fin 128,
          ((∑ k : Fin 16, max (v33 (ix3 p q k) + v34 (ix3 (0 : Fin 1) (0 : Fin 1) k)) 0 * w2 (ix2 k o)) + b2 (ix1 o)) := by
  unfold k0_pay1
  refine (congrFun (shapeCast_self _ _) (ix2 p o)).trans ?_
  refine (addf_apply _ _ _).trans ?_
  refine congrArg (acc (ix2 p o) + ·) ?_
  refine (sumAxis1_apply _ _ _ _ p o).trans ?_
  refine Finset.sum_congr rfl fun q _ => ?_
  refine (shapeCast_mc_abc_apply _ _ p q o ⟨p.val * 128 + q.val, by omega⟩ rfl).trans ?_
  refine (addf_apply _ _ _).trans ?_
  refine congrArg₂ (· + ·) ?_ ?_
  · refine (matmul16_apply _ _ _ o).trans ?_
    refine Finset.sum_congr rfl fun k _ => ?_
    refine congrArg₂ (· * ·) ?_ (trunc_bf16_apply _ _ _)
    refine (trunc_bf16_apply _ _ _).trans ?_
    refine (shapeCast_abc_mc_apply _ _ p q k ⟨p.val * 128 + q.val, by omega⟩ rfl).trans ?_
    refine (maximumf_apply _ _ _).trans ?_
    refine congrArg₂ max ?_ ?_
    · refine (addf_apply _ _ _).trans ?_
      refine congrArg (v33 (ix3 p q k) + ·) ?_
      exact broadcastTo_11c_abc_apply v34 _ p q k
    · exact Ideal.ofBits_zero_f32
  · refine (broadcastTo_1b_ab_apply _ _ _ o).trans ?_
    exact shapeCast_a_1a_apply b2 _ 0 o

end Cert.KPay

end
-- ==== Proof.PayHidden.lean ====
/-
  The hidden layer's pre-activation without its bias, read at an index. For the block's query row p, context row q
  and hidden unit k the body computes

      (y[p]·W1[4..5, k] − x[p]·W1[0..1, k]) + (x'[q]·W1[0..1, k] + y'[q]·W1[2..3, k]),

  where x, y are the blocks at the query rows and x', y' the blocks at the context rows: four products of a [128, 2]
  block with a two-row band of the 6 × 16 matrix, the query part broadcast along the context axis and the context
  part along the query axis.
-/
import proofs.«113326_j27135603376523_1_alg».proof.Proof.Gen.KernelIdeal.Skeleton
import proofs.«113326_j27135603376523_1_alg».proof.Proof.Spec
import proofs.«113326_j27135603376523_1_alg».proof.Proof.LibMatmul
import proofs.«113326_j27135603376523_1_alg».proof.Proof.PayLayout
import Idealize.ShloMosaic.PureOps.Ideal.Laws

noncomputable section

open scoped BigOperators

namespace Cert.KPay

open Idealize.ShloMosaic Idealize.ShloMosaic.ValueIdx Cert.KernelIdeal Cert.KernelIdeal.Gen

/-- One of the first layer's four products: the rows of a [1, 128, 2] block against the j-th two-row band of the
    6 × 16 matrix (the slice at row offset 2 j), into the zero accumulator, read at (p, k). -/
theorem band_apply (x : Vec Ideal S1x128x2 .f32) (w1 : Vec Ideal S6x16 .f32) (j : Fin 3) (o : Nat)
    (hs : S6x16.Slices ![o, 0] S2x16) (ho : o = 2 * j.val) (hc : S1x128x2.ShapeCasts S128x2)
    (hb : FTy.bits .bf16 < FTy.bits .f32) (p : Fin 128) (k : Fin 16) :
    matmul dot_S128x2_S2x16_S128x16_1_0_0_1_n_n none
        (truncf .bf16 (shapeCast S128x2 x hc) hb : FVec Ideal S128x2 .bf16)
        (truncf .bf16 (extractStridedSlice S2x16 ![o, 0] w1 hs) hb : FVec Ideal S2x16 .bf16)
        (constant (F := Ideal) S128x16 .f32 0x00000000#32) (ix2 p k)
      = ∑ f : Fin 2, x (ix3 (0 : Fin 1) p f) * w1 (ix2 (Cert.Deepset.w1row j f) k) := by
  refine (Cert.Bridge.LibMatmul.matmul_zero_apply none _ _ p k).trans ?_
  refine Finset.sum_congr rfl fun f _ => ?_
  refine congrArg₂ (· * ·) ?_ ?_
  · refine (trunc_bf16_apply _ _ _).trans ?_
    exact shapeCast_1ab_ab_apply x hc p f
  · refine (trunc_bf16_apply _ _ _).trans ?_
    exact slice2_axis0_apply o w1 hs f k (Cert.Deepset.w1row j f) (by subst ho; rfl)

/-- The hidden layer's pre-activation without its bias, for the block's query row p and context row q at unit k:
    the part that depends on the query row plus the part that depends on the context row. -/
theorem pay4_apply (xn yn xm ym : Vec Ideal S1x128x2 .f32) (w1 : Vec Ideal S6x16 .f32) (p q : Fin 128) (k : Fin 16) :
    k0_pay4 xn yn xm ym w1 (ix3 p q k)
      = ((∑ f : Fin 2, yn (ix3 (0 : Fin 1) p f) * w1 (ix2 (Cert.Deepset.w1row 2 f) k))
          - (∑ f : Fin 2, xn (ix3 (0 : Fin 1) p f) * w1 (ix2 (Cert.Deepset.w1row 0 f) k)))
        + ((∑ f : Fin 2, xm (ix3 (0 : Fin 1) q f) * w1 (ix2 (Cert.Deepset.w1row 0 f) k))
          + (∑ f : Fin 2, ym (ix3 (0 : Fin 1) q f) * w1 (ix2 (Cert.Deepset.w1row 1 f) k))) := by
  unfold k0_pay4
  refine (addf_apply _ _ _).trans ?_
  refine congrArg₂ (· + ·) ?_ ?_
  · refine (broadcastTo_a1c_abc_apply _ _ p q k).trans ?_
    refine (shapeCast_ab_a1b_apply _ _ p 0 k).trans ?_
    refine (subf_apply _ _ _).trans ?_
    refine congrArg₂ (· - ·) ?_ ?_
    · exact band_apply yn w1 2 4 _ rfl _ _ p k
    · exact band_apply xn w1 0 0 _ rfl _ _ p k
  · refine (broadcastTo_1bc_abc_apply _ _ p q k).trans ?_
    refine (shapeCast_ab_1ab_apply _ _ 0 q k).trans ?_
    refine (addf_apply _ _ _).trans ?_
    refine congrArg₂ (· + ·) ?_ ?_
    · exact band_apply xm w1 0 0 _ rfl _ _ q k
    · exact band_apply ym w1 1 2 _ rfl _ _ q k

end Cert.KPay

end
-- ==== Proof.Payload.lean ====
/-
  The five payloads of the kernel body read at an index, collected.
-/
import proofs.«113326_j27135603376523_1_alg».proof.Proof.PaySmall
import proofs.«113326_j27135603376523_1_alg».proof.Proof.PayAcc
import proofs.«113326_j27135603376523_1_alg».proof.Proof.PayHidden
-- ==== Proof.StepSum.lean ====
/-
  One grid point's accumulator step in terms of the whole arrays, and the sum over the 1024 context rows cut into
  eight tiles of 128 rows.

  When the four input blocks are the rows of the arrays x, y at query tile ni and context tile mi of batch b, the step
  adds to the accumulator at (p, o) the sum over the tile's context rows q of the second layer applied to the
  rectified hidden units of the pair (row ni p, row mi q). Summing the tiles' contributions over the eight context
  tiles gives the sum over all 1024 context rows.
-/
import proofs.«113326_j27135603376523_1_alg».proof.Proof.Payload
import proofs.«113326_j27135603376523_1_alg».proof.Proof.Spec
import proofs.«113326_j27135603376523_1_alg».proof.Proof.KIBody

noncomputable section

open scoped BigOperators

namespace Cert.KPay

open Idealize.ShloMosaic Idealize.ShloMosaic.ValueIdx Cert.KernelIdeal Cert.KernelIdeal.Gen

/-- Row p of tile j: row 128 j + p of the 1024. -/
def row (j : Fin 8) (p : Fin 128) : Fin 1024 := ⟨j.val * 128 + p.val, by omega⟩

/-- The accumulator step at one grid point, over the whole arrays. -/
theorem step_apply (X Y : Cert.Deepset.SXY.Idx → EReal) (W1 : Cert.Deepset.SW1.Idx → EReal) (B1 : Cert.Deepset.SV.Idx → EReal)
    (W2 : Cert.Deepset.SW2.Idx → EReal) (B2 : Cert.Deepset.SV.Idx → EReal) (b ni mi : Fin 8)
    (xn yn xm ym : Vec Ideal S1x128x2 .f32) (w1 : Vec Ideal S6x16 .f32) (b1 : Vec Ideal S16 .f32)
    (w2 : Vec Ideal S16x16 .f32) (b2 : Vec Ideal S16 .f32) (acc : Vec Ideal S128x16 .f32)
    (hxn : ∀ (p : Fin 128) (f : Fin 2), xn (ix3 (0 : Fin 1) p f) = X (ix3 b (row ni p) f))
    (hyn : ∀ (p : Fin 128) (f : Fin 2), yn (ix3 (0 : Fin 1) p f) = Y (ix3 b (row ni p) f))
    (hxm : ∀ (q : Fin 128) (f : Fin 2), xm (ix3 (0 : Fin 1) q f) = X (ix3 b (row mi q) f))
    (hym : ∀ (q : Fin 128) (f : Fin 2), ym (ix3 (0 : Fin 1) q f) = Y (ix3 b (row mi q) f))
    (hw1 : w1 = W1) (hb1 : b1 = B1) (hw2 : w2 = W2) (hb2 : b2 = B2) (p : Fin 128) (o : Fin 16) :
    Cert.KernelIdeal.Hand.accStep xn yn xm ym w1 b1 w2 b2 acc (ix2 p o)
      = acc (ix2 p o)
        + ∑ q : Fin 128, Cert.Deepset.phi (Cert.Deepset.hidden X Y W1 B1) W2 B2 b (row ni p) (row mi q) o := by
  subst hw1 hb1 hw2 hb2
  unfold Cert.KernelIdeal.Hand.accStep
  refine (pay1_apply _ _ _ _ _ p o).trans ?_
  refine congrArg (acc (ix2 p o) + ·) ?_
  refine Finset.sum_congr rfl fun q _ => ?_
  unfold Cert.Deepset.phi
  refine congrArg (· + b2 (ix1 o)) ?_
  refine Finset.sum_congr rfl fun k _ => ?_
  refine congrArg (fun z => max z 0 * w2 (ix2 k o)) ?_
  refine (congrArg₂ (· + ·) (pay4_apply xn yn xm ym w1 p q k) (pay5_apply b1 k)).trans ?_
  unfold Cert.Deepset.hidden Cert.Deepset.qryPart Cert.Deepset.ctxPart
  simp only [hxn, hyn, hxm, hym]

/-- A sum over the 1024 rows is the sum over the eight tiles of the sums over each tile's 128 rows. -/
theorem sum_rows {M : Type*} [AddCommMonoid M] (f : Fin 1024 → M) :
    ∑ m : Fin 1024, f m = ∑ j : Fin 8, ∑ q : Fin 128, f (row j q) := by
  refine Eq.trans ?_ (Fintype.sum_prod_type (fun x : Fin 8 × Fin 128 => f (row x.1 x.2)))
  refine (Fintype.sum_equiv ((finProdFinEquiv (m := 8) (n := 128)).trans (finCongr (by norm_num)))
    (fun x : Fin 8 × Fin 128 => f (row x.1 x.2)) f fun x => ?_).symm
  refine congrArg f (Fin.ext ?_)
  show x.1.val * 128 + x.2.val = x.2.val + 128 * x.1.val
  omega

/-- A sum over Fin n as a sum over the naturals below n. -/
theorem sum_fin_eq_range {M : Type*} [AddCommMonoid M] (n : ℕ) (g : Fin n → M) :
    ∑ j : Fin n, g j = (Finset.range n).sum (fun j => if h : j < n then g ⟨j, h⟩ else 0) := by
  rw [Finset.sum_range]
  refine Finset.sum_congr rfl fun j _ => ?_
  rw [dif_pos j.isLt]

/-- The sum over all 1024 context rows, as the sum over the naturals below 8 of the tiles' partial sums. -/
theorem sum_rows_range {M : Type*} [AddCommMonoid M] (f : Fin 1024 → M) :
    ∑ m : Fin 1024, f m
      = (Finset.range 8).sum (fun j => if h : j < 8 then ∑ q : Fin 128, f (row ⟨j, h⟩ q) else 0) :=
  (sum_rows f).trans (sum_fin_eq_range 8 fun j => ∑ q : Fin 128, f (row j q))

end Cert.KPay

end
-- ==== Proof.KIBlocks.lean ====
/-
  The input blocks at a grid point, read off the whole arrays. At point t of batch b, query tile ni and context tile mi
  the two query windows hold rows 128 ni + p of x and y, the two context windows rows 128 mi + q, and the four weight
  windows the whole weight arrays.
-/
import proofs.«113326_j27135603376523_1_alg».proof.Proof.KIFrame
import proofs.«113326_j27135603376523_1_alg».proof.Proof.KIIndex
import proofs.«113326_j27135603376523_1_alg».proof.Proof.StepSum

noncomputable section

namespace Cert.KernelIdeal.HandValue

open Cert.KernelIdeal Cert.KernelIdeal.Gen Cert.KernelIdeal.Hand Cert.KPay
open Idealize.ShloMosaic Idealize.ShloMosaic.TcCoe Idealize.ShloMosaic.ValueIdx Idealize.SL.Sem
open Idealize.ShloMosaic.Pipeline (Dat)

variable {F : FTy → Type} [FloatOps F]
variable (m : (ℓ : Loc nD τ sig) → Buf (Elt F) ℓ)

/-- The batch, the query tile and the context tile of point n. -/
def bOf (n : ℕ) : Fin 8 := ⟨n / 64 % 8, Nat.mod_lt _ (by decide)⟩
def niOf (n : ℕ) : Fin 8 := ⟨n / 8 % 8, Nat.mod_lt _ (by decide)⟩
def miOf (n : ℕ) : Fin 8 := ⟨n % 8, Nat.mod_lt _ (by decide)⟩

/-- Window 0 at point t: rows of x at the query tile. -/
theorem blk0_apply (c : Dev nD) (t : Fin cfg0.N) (p : Fin 128) (f : Fin 2) :
    iblk m c 0 t (ix3 (0 : Fin 1) p f) = m ((c : Thread nD τ).loc main_arg0) (ix3 (bOf t.val) (row (niOf t.val) p) f) := by
  have hN : t.val < 512 := Nat.lt_of_lt_of_eq t.isLt N_0
  obtain ⟨e0, e1, e2, -⟩ := idx_qry t
  unfold iblk
  rw [View.read_apply]
  show V m c main_arg0 _ = m ((c : Thread nD τ).loc main_arg0) _
  unfold V
  refine congrArg _ ?_
  funext a
  apply Fin.ext
  match a with
  | ⟨0, _⟩ => show win0_0.index t (0 : Fin 3) * 1 + 1 * 0 = t.val / 64 % 8; omega
  | ⟨1, _⟩ => show win0_0.index t (1 : Fin 3) * 128 + 1 * p.val = t.val / 8 % 8 * 128 + p.val; omega
  | ⟨2, _⟩ => show win0_0.index t (2 : Fin 3) * 2 + 1 * f.val = f.val; omega

/-- Window 1 at point t: rows of y at the query tile. -/
theorem blk1_apply (c : Dev nD) (t : Fin cfg0.N) (p : Fin 128) (f : Fin 2) :
    iblk m c 1 t (ix3 (0 : Fin 1) p f) = m ((c : Thread nD τ).loc main_arg1) (ix3 (bOf t.val) (row (niOf t.val) p) f) := by
  have hN : t.val < 512 := Nat.lt_of_lt_of_eq t.isLt N_0
  obtain ⟨-, -, -, e0, e1, e2⟩ := idx_qry t
  unfold iblk
  rw [View.read_apply]
  show V m c main_arg1 _ = m ((c : Thread nD τ).loc main_arg1) _
  unfold V
  refine congrArg _ ?_
  funext a
  apply Fin.ext
  match a with
  | ⟨0, _⟩ => show win0_1.index t (0 : Fin 3) * 1 + 1 * 0 = t.val / 64 % 8; omega
  | ⟨1, _⟩ => show win0_1.index t (1 : Fin 3) * 128 + 1 * p.val = t.val / 8 % 8 * 128 + p.val; omega
  | ⟨2, _⟩ => show win0_1.index t (2 : Fin 3) * 2 + 1 * f.val = f.val; omega

/-- Window 2 at point t: rows of x at the context tile. -/
theorem blk2_apply (c : Dev nD) (t : Fin cfg0.N) (p : Fin 128) (f : Fin 2) :
    iblk m c 2 t (ix3 (0 : Fin 1) p f) = m ((c : Thread nD τ).loc main_arg0) (ix3 (bOf t.val) (row (miOf t.val) p) f) := by
  have hN : t.val < 512 := Nat.lt_of_lt_of_eq t.isLt N_0
  obtain ⟨e0, e1, e2, -⟩ := idx_ctx t
  unfold iblk
  rw [View.read_apply]
  show V m c main_arg0 _ = m ((c : Thread nD τ).loc main_arg0) _
  unfold V
  refine congrArg _ ?_
  funext a
  apply Fin.ext
  match a with
  | ⟨0, _⟩ => show win0_2.index t (0 : Fin 3) * 1 + 1 * 0 = t.val / 64 % 8; omega
  | ⟨1, _⟩ => show win0_2.index t (1 : Fin 3) * 128 + 1 * p.val = t.val % 8 * 128 + p.val; omega
  | ⟨2, _⟩ => show win0_2.index t (2 : Fin 3) * 2 + 1 * f.val = f.val; omega

/-- Window 3 at point t: rows of y at the context tile. -/
theorem blk3_apply (c : Dev nD) (t : Fin cfg0.N) (p : Fin 128) (f : Fin 2) :
    iblk m c 3 t (ix3 (0 : Fin 1) p f) = m ((c : Thread nD τ).loc main_arg1) (ix3 (bOf t.val) (row (miOf t.val) p) f) := by
  have hN : t.val < 512 := Nat.lt_of_lt_of_eq t.isLt N_0
  obtain ⟨-, -, -, e0, e1, e2⟩ := idx_ctx t
  unfold iblk
  rw [View.read_apply]
  show V m c main_arg1 _ = m ((c : Thread nD τ).loc main_arg1) _
  unfold V
  refine congrArg _ ?_
  funext a
  apply Fin.ext
  match a with
  | ⟨0, _⟩ => show win0_3.index t (0 : Fin 3) * 1 + 1 * 0 = t.val / 64 % 8; omega
  | ⟨1, _⟩ => show win0_3.index t (1 : Fin 3) * 128 + 1 * p.val = t.val % 8 * 128 + p.val; omega
  | ⟨2, _⟩ => show win0_3.index t (2 : Fin 3) * 2 + 1 * f.val = f.val; omega

/-- Window 4 at every point: the whole first-layer matrix. -/
theorem blk4_eq (c : Dev nD) (t : Fin cfg0.N) :
    (iblk m c 4 t : Vec F S6x16 .f32) = m ((c : Thread nD τ).loc main_arg3) := by
  obtain ⟨e0, e1, -⟩ := idx_wts t
  funext j
  unfold iblk
  rw [View.read_apply]
  show V m c main_arg3 _ = m ((c : Thread nD τ).loc main_arg3) _
  unfold V
  refine congrArg _ ?_
  funext a
  apply Fin.ext
  match a with
  | ⟨0, _⟩ => show win0_4.index t (0 : Fin 2) * 6 + 1 * (j 0).val = (j 0).val; omega
  | ⟨1, _⟩ => show win0_4.index t (1 : Fin 2) * 16 + 1 * (j 1).val = (j 1).val; omega

/-- Window 5 at every point: the whole first-layer bias. -/
theorem blk5_eq (c : Dev nD) (t : Fin cfg0.N) :
    (iblk m c 5 t : Vec F S16 .f32) = m ((c : Thread nD τ).loc main_arg4) := by
  obtain ⟨-, -, e0, -⟩ := idx_wts t
  funext j
  unfold iblk
  rw [View.read_apply]
  show V m c main_arg4 _ = m ((c : Thread nD τ).loc main_arg4) _
  unfold V
  refine congrArg _ ?_
  funext a
  apply Fin.ext
  match a with
  | ⟨0, _⟩ => show win0_5.index t (0 : Fin 1) * 16 + 1 * (j 0).val = (j 0).val; omega

/-- Window 6 at every point: the whole second-layer matrix. -/
theorem blk6_eq (c : Dev nD) (t : Fin cfg0.N) :
    (iblk m c 6 t : Vec F S16x16 .f32) = m ((c : Thread nD τ).loc main_arg5) := by
  obtain ⟨-, -, -, e0, e1, -⟩ := idx_wts t
  funext j
  unfold iblk
  rw [View.read_apply]
  show V m c main_arg5 _ = m ((c : Thread nD τ).loc main_arg5) _
  unfold V
  refine congrArg _ ?_
  funext a
  apply Fin.ext
  match a with
  | ⟨0, _⟩ => show win0_6.index t (0 : Fin 2) * 16 + 1 * (j 0).val = (j 0).val; omega
  | ⟨1, _⟩ => show win0_6.index t (1 : Fin 2) * 16 + 1 * (j 1).val = (j 1).val; omega

/-- Window 7 at every point: the whole second-layer bias. -/
theorem blk7_eq (c : Dev nD) (t : Fin cfg0.N) :
    (iblk m c 7 t : Vec F S16 .f32) = m ((c : Thread nD τ).loc main_arg6) := by
  obtain ⟨-, -, -, -, -, e0⟩ := idx_wts t
  funext j
  unfold iblk
  rw [View.read_apply]
  show V m c main_arg6 _ = m ((c : Thread nD τ).loc main_arg6) _
  unfold V
  refine congrArg _ ?_
  funext a
  apply Fin.ext
  match a with
  | ⟨0, _⟩ => show win0_7.index t (0 : Fin 1) * 16 + 1 * (j 0).val = (j 0).val; omega

end Cert.KernelIdeal.HandValue

end
-- ==== Proof.KIStep.lean ====
/-
  The accumulator at the last context tile of a (batch, query tile): the sum over all 1024 context rows.

  Each point adds to the accumulator its tile's partial sums; the accumulator restarts from zero at the first context
  tile. So after the eighth tile of batch b and query tile ni it holds, at (p, o), the sum over the eight tiles of the
  sums over each tile's 128 rows — the sum over the 1024 context rows m of the second layer applied to the rectified
  hidden units of the pair (row ni p, m).
-/
import proofs.«113326_j27135603376523_1_alg».proof.Proof.KIBlocks

noncomputable section

open scoped BigOperators

namespace Cert.KernelIdeal.HandValue

open Cert.KernelIdeal Cert.KernelIdeal.Gen Cert.KernelIdeal.Hand Cert.KPay
open Idealize.ShloMosaic Idealize.ShloMosaic.TcCoe Idealize.ShloMosaic.ValueIdx Idealize.SL.Sem

variable (m : (ℓ : Loc nD τ sig) → Buf (Elt Ideal) ℓ)

/-- The second layer on the rectified hidden units of a (query row, context row) pair, over the arrays as launched. -/
abbrev phiOf (c : Dev nD) (b : Fin 8) (n mm : Fin 1024) (o : Fin 16) : EReal :=
  Cert.Deepset.phi
    (Cert.Deepset.hidden (m ((c : Thread nD τ).loc main_arg0)) (m ((c : Thread nD τ).loc main_arg1))
      (m ((c : Thread nD τ).loc main_arg3)) (m ((c : Thread nD τ).loc main_arg4)))
    (m ((c : Thread nD τ).loc main_arg5)) (m ((c : Thread nD τ).loc main_arg6)) b n mm o

/-- Point n's addend at (p, o): its tile's partial sum. -/
def tileSum (c : Dev nD) (n : ℕ) (p : Fin 128) (o : Fin 16) : EReal :=
  ∑ q : Fin 128, phiOf m c (bOf n) (row (niOf n) p) (row (miOf n) q) o

/-- One step adds the point's tile sum. -/
theorem stepAt_apply (c : Dev nD) (t : Fin cfg0.N) (acc : Vec Ideal S128x16 .f32) (p : Fin 128) (o : Fin 16) :
    stepAt m c t acc (ix2 p o) = acc (ix2 p o) + tileSum m c t.val p o := by
  unfold stepAt tileSum
  exact step_apply _ _ _ _ _ _ (bOf t.val) (niOf t.val) (miOf t.val)
    (iblk m c 0 t) (iblk m c 1 t) (iblk m c 2 t) (iblk m c 3 t) (iblk m c 4 t) (iblk m c 5 t) (iblk m c 6 t) (iblk m c 7 t) acc
    (blk0_apply m c t) (blk1_apply m c t) (blk2_apply m c t) (blk3_apply m c t)
    (blk4_eq m c t) (blk5_eq m c t) (blk6_eq m c t) (blk7_eq m c t) p o

/-- The eight points of one (batch, query tile) share the batch and the query tile, and run through the context tiles. -/
theorem bOf_run (q s : ℕ) (hs : s < 8) : bOf (8 * q + s) = bOf (8 * q + 7) := by
  apply Fin.ext; show (8 * q + s) / 64 % 8 = (8 * q + 7) / 64 % 8; omega
theorem niOf_run (q s : ℕ) (hs : s < 8) : niOf (8 * q + s) = niOf (8 * q + 7) := by
  apply Fin.ext; show (8 * q + s) / 8 % 8 = (8 * q + 7) / 8 % 8; omega
theorem miOf_run (q s : ℕ) (hs : s < 8) : miOf (8 * q + s) = ⟨s, hs⟩ := by
  apply Fin.ext; show (8 * q + s) % 8 = s; omega

/-- After the last context tile the accumulator holds the sum over all 1024 context rows. -/
theorem accAt_last (c : Dev nD) (t : Fin cfg0.N) (h7 : t.val % 8 = 7) (p : Fin 128) (o : Fin 16) :
    accAt m c t.val t.isLt (ix2 p o)
      = ∑ mm : Fin 1024, phiOf m c (bOf t.val) (row (niOf t.val) p) mm o := by
  obtain ⟨n, hn⟩ := t
  obtain ⟨q, rfl⟩ : ∃ q, n = 8 * q + 7 := ⟨n / 8, by dsimp only at h7; omega⟩
  show accAt m c (8 * q + 7) hn (ix2 p o) = ∑ mm : Fin 1024, phiOf m c (bOf (8 * q + 7)) (row (niOf (8 * q + 7)) p) mm o
  have e1 := Pipeline.eq_accAt (accAt m c) 8 (fun n h => stepAt m c ⟨n, h⟩ (k0_pay3 (F := Ideal)))
    (fun n h acc => stepAt m c ⟨n, h⟩ acc)
    (fun n h h0 => accAt_first m c ⟨n, h⟩ h0)
    (fun n h hne => by
      show stepAt m c ⟨n + 1, h⟩ (if (n + 1) % 8 = 0 then k0_pay3 (F := Ideal) else accAt m c n (Nat.lt_of_succ_lt h)) = _
      rw [if_neg hne])
    q 7 (by decide) hn
  have e2 := Pipeline.accAt_add_apply (ι := S128x16.Idx) (β := EReal)
    (fun n h => stepAt m c ⟨n, h⟩ (k0_pay3 (F := Ideal))) (fun n h acc => stepAt m c ⟨n, h⟩ acc)
    (fun _ => 0) (fun n i => tileSum m c n (i 0) (i 1)) (8 * q) 7
    (fun h i => by
      obtain ⟨p, o, rfl⟩ : ∃ (p : Fin 128) (o : Fin 16), i = ix2 p o := ⟨i 0, i 1, eq_ix2 i⟩
      exact (stepAt_apply m c ⟨8 * q, h⟩ _ p o).trans (congrArg (· + tileSum m c (8 * q) p o) (pay3_apply p o)))
    (fun n h acc i _ _ => by
      obtain ⟨p, o, rfl⟩ : ∃ (p : Fin 128) (o : Fin 16), i = ix2 p o := ⟨i 0, i 1, eq_ix2 i⟩
      exact stepAt_apply m c ⟨n, h⟩ acc p o)
    7 (le_refl 7) hn (ix2 p o)
  rw [e1]
  refine e2.trans ?_
  rw [zero_add, sum_rows_range]
  refine Finset.sum_congr rfl fun s hs => ?_
  have hs8 : s < 8 := Finset.mem_range.mp hs
  rw [dif_pos hs8]
  show tileSum m c (8 * q + s) p o = _
  unfold tileSum
  rw [bOf_run q s hs8, niOf_run q s hs8, miOf_run q s hs8]

end Cert.KernelIdeal.HandValue

end
-- ==== Proof.KICover.lean ====
/-
  The output array is covered by the blocks the pipeline writes back: the entry [b, r, o] lies in the block of the
  grid point 64·b + 8·(r / 128) + 7, the last context tile of batch b and query tile r / 128, and that point is one
  of those whose block is written back.
-/
import proofs.«113326_j27135603376523_1_alg».proof.Proof.KIFrame
import Idealize.ShloMosaic.Lib.Pipeline.Value

noncomputable section

namespace Cert.KernelIdeal.HandValue

open Cert.KernelIdeal Cert.KernelIdeal.Gen
open Idealize.ShloMosaic Idealize.ShloMosaic.TcCoe
open Idealize.SL Idealize.SL.Sem

/-- The output window's block index at grid point t: (t / 64, t / 8 mod 8, 0). -/
theorem idx8 : ∀ t : Fin cfg0.N, win0_8.index t (0 : Fin 3) = t.val / 64
    ∧ win0_8.index t (1 : Fin 3) = t.val / 8 % 8 ∧ win0_8.index t (2 : Fin 3) = 0 :=
  (by decide +kernel : ∀ t : Fin grid0.N, _)

/-- An index of the output array is in point t's block iff each coordinate is in the block's range on its axis. -/
theorem mem_blk8 (t : Fin cfg0.N) (i : S8x1024x16.Idx) :
    i ∈ ((cfg0.win 8).blk t).view.set ↔ ∀ a : Fin 3, win0_8.index t a * S1x128x16.size a ≤ (i a).val
      ∧ (i a).val < win0_8.index t a * S1x128x16.size a + S1x128x16.size a := by
  show i ∈ ((View.whole main_v0).slice (win0_8.rect t)).set ↔ _
  rw [View.set_slice_whole, Rect.mem_set_unit]
  exact Iff.rfl

/-- Every entry of the output array is in the block some point writes back. -/
theorem cover8 : ∀ i : S8x1024x16.Idx, ∃ t : Fin cfg0.N, (cfg0.win 8).flush t = true
    ∧ i ∈ ((cfg0.win 8).blk t).view.set := by
  intro i
  have hN : cfg0.N = 512 := N_0
  have hi0 : (i 0).val < 8 := (i 0).isLt
  have hi1 : (i 1).val < 1024 := (i 1).isLt
  have hi2 : (i 2).val < 16 := (i 2).isLt
  obtain ⟨t, tv⟩ : ∃ t : Fin cfg0.N, t.val = 64 * (i 0).val + 8 * ((i 1).val / 128) + 7 :=
    ⟨⟨64 * (i 0).val + 8 * ((i 1).val / 128) + 7, by rw [hN]; omega⟩, rfl⟩
  obtain ⟨e0, e1, e2⟩ := idx8 t
  refine ⟨t, (flush0_8 t).mpr (by omega), ?_⟩
  rw [mem_blk8]
  intro a
  match a with
  | ⟨0, _⟩ =>
    show win0_8.index t (0 : Fin 3) * 1 ≤ (i 0).val ∧ (i 0).val < win0_8.index t (0 : Fin 3) * 1 + 1
    omega
  | ⟨1, _⟩ =>
    show win0_8.index t (1 : Fin 3) * 128 ≤ (i 1).val ∧ (i 1).val < win0_8.index t (1 : Fin 3) * 128 + 128
    omega
  | ⟨2, _⟩ =>
    show win0_8.index t (2 : Fin 3) * 16 ≤ (i 2).val ∧ (i 2).val < win0_8.index t (2 : Fin 3) * 16 + 16
    omega

end Cert.KernelIdeal.HandValue

end
-- ==== Proof.KIValue.lean ====
/-
  The kernel's result array in closed form: the mean over the 1024 context rows of the second layer applied to the
  rectified hidden units.

  The output block of batch b and query tile ni is written back once, at the last context tile; what is written is the
  accumulator — by then the sum over all 1024 context rows — times 1/1024, and that is the block of the whole function
  at (b, ni). The eight by eight blocks tile the array.
-/
import proofs.«113326_j27135603376523_1_alg».proof.Proof.KIStep
import proofs.«113326_j27135603376523_1_alg».proof.Proof.KICover

noncomputable section

open scoped BigOperators

namespace Cert.KernelIdeal.HandValue

open Cert.KernelIdeal Cert.KernelIdeal.Gen Cert.KernelIdeal.Hand Cert.KPay
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-- The whole function of the arrays as launched. -/
abbrev resultOf (c : Dev nD) : Buf (Elt Ideal) ((c : Thread nD τ).loc main_v0) :=
  Cert.Deepset.result (m ((c : Thread nD τ).loc main_arg0)) (m ((c : Thread nD τ).loc main_arg1))
    (m ((c : Thread nD τ).loc main_arg3)) (m ((c : Thread nD τ).loc main_arg4))
    (m ((c : Thread nD τ).loc main_arg5)) (m ((c : Thread nD τ).loc main_arg6))

/-- What a writing point writes back is its block of the whole function. -/
theorem flushed8_eq (c : Dev nD) (t : Fin cfg0.N) (hf : (cfg0.win 8).flush t = true) :
    (dats (F := Ideal) m 0 c).flushed 8 t = ((cfg0.win 8).blk t).view.read (Elt Ideal) (resultOf m c) := by
  have h7 : t.val % 8 = 7 := (flush0_8 t).mp hf
  have hN : t.val < 512 := Nat.lt_of_lt_of_eq t.isLt N_0
  obtain ⟨e0, e1, e2⟩ := idx_out t
  show (cfg0.win 8).cut (grid0.coords t) ((dats (F := Ideal) m 0 c).after 8 t) = _
  rw [after0_8]
  refine funext fun (y : S1x128x16.Idx) => ?_
  obtain ⟨u, p, o, rfl⟩ : ∃ (u : Fin 1) (p : Fin 128) (o : Fin 16), y = ix3 u p o := ⟨y 0, y 1, y 2, eq_ix3 y⟩
  obtain rfl : u = 0 := Subsingleton.elim _ _
  rw [View.read_apply]
  have hemb : ((cfg0.win 8).blk t).view.emb (ix3 (0 : Fin 1) p o) = ix3 (bOf t.val) (row (niOf t.val) p) o := by
    funext a
    apply Fin.ext
    match a with
    | ⟨0, _⟩ => show win0_8.index t (0 : Fin 3) * 1 + 1 * 0 = t.val / 64 % 8; omega
    | ⟨1, _⟩ => show win0_8.index t (1 : Fin 3) * 128 + 1 * p.val = t.val / 8 % 8 * 128 + p.val; omega
    | ⟨2, _⟩ => show win0_8.index t (2 : Fin 3) * 16 + 1 * o.val = o.val; omega
  show k0_pay2 (accAt m c t.val t.isLt) (ix3 (0 : Fin 1) p o) = resultOf m c (((cfg0.win 8).blk t).view.emb (ix3 (0 : Fin 1) p o))
  rw [hemb, pay2_apply, accAt_last m c t h7 p o]
  rfl

/-- The result array after the run. -/
theorem final8 (c : Dev nD) :
    (Cert.KernelIdeal.Hand.dats (F := Ideal) m 0 c).arrAt 8 cfg0.N
      = Cert.Deepset.result (m ((c : Thread nD τ).loc main_arg0)) (m ((c : Thread nD τ).loc main_arg1))
          (m ((c : Thread nD τ).loc main_arg3)) (m ((c : Thread nD τ).loc main_arg4))
          (m ((c : Thread nD τ).loc main_arg5)) (m ((c : Thread nD τ).loc main_arg6)) :=
  (dats (F := Ideal) m 0 c).arrAt_eq_of_cover 8 (resultOf m c) (flushed8_eq m c) cover8

end Cert.KernelIdeal.HandValue

end
-- ==== Proof.RefCtx.lean ====
/-
  The reference's feature array read at an index: the concatenation [x_m − x_n, y_m, y_n] along the last axis.
-/
import proofs.«113326_j27135603376523_1_alg».proof.Proof.Gen.ReferenceIdeal.Read
import proofs.«113326_j27135603376523_1_alg».proof.Proof.Spec

noncomputable section

open scoped BigOperators

namespace Cert.RefSide

open Cert.ReferenceIdeal Cert.ReferenceIdeal.Gen Cert.ReferenceIdeal.Read
open Idealize.ShloMosaic Idealize.ShloMosaic.ValueIdx Cert.Deepset

/-- The contents of an f32 array of shape `S` at the ideal instance: a function from its indices to the extended reals. -/
abbrev Arr (S : Shape) : Type := (⟨S, .f32⟩ : BufTy).Contents (Elt Ideal)

/-- Through the two broadcasts that tile the context rows, entry [b,n,m,f] comes from entry [b,m,f]. -/
theorem idx_ctx_X (b : Fin 8) (n m : Fin 1024) (f : Fin 2) :
    idx_main_v0 (idx_main_v2 (ix4 b n m f)) = ix3 b m f :=
  funext fun a => Fin.ext (by match a with | ⟨0, _⟩ => rfl | ⟨1, _⟩ => rfl | ⟨2, _⟩ => rfl)

/-- Through the two broadcasts that tile the query rows, entry [b,n,m,f] comes from entry [b,n,f]. -/
theorem idx_qry_X (b : Fin 8) (n m : Fin 1024) (f : Fin 2) :
    idx_main_v1 (idx_main_v3 (ix4 b n m f)) = ix3 b n f :=
  funext fun a => Fin.ext (by match a with | ⟨0, _⟩ => rfl | ⟨1, _⟩ => rfl | ⟨2, _⟩ => rfl)

theorem idx_ctx_Y (b : Fin 8) (n m : Fin 1024) (f : Fin 2) :
    idx_main_v5 (idx_main_v6 (ix4 b n m f)) = ix3 b m f :=
  funext fun a => Fin.ext (by match a with | ⟨0, _⟩ => rfl | ⟨1, _⟩ => rfl | ⟨2, _⟩ => rfl)

theorem idx_qry_Y (b : Fin 8) (n m : Fin 1024) (f : Fin 2) :
    idx_main_v7 (idx_main_v8 (ix4 b n m f)) = ix3 b n f :=
  funext fun a => Fin.ext (by match a with | ⟨0, _⟩ => rfl | ⟨1, _⟩ => rfl | ⟨2, _⟩ => rfl)

/-- The pairwise difference x[b,m,f] − x[b,n,f], read through its two broadcasts. -/
theorem diff_apply (X : Arr S8x1024x2) (b : Fin 8) (n m : Fin 1024) (f : Fin 2) :
    val_main_v4 (F := Ideal) X (ix4 b n m f) = X (ix3 b m f) - X (ix3 b n f) := by
  rw [val_main_v4_apply, val_main_v2_apply, val_main_v0_apply, val_main_v3_apply, val_main_v1_apply,
    idx_ctx_X, idx_qry_X]
  rfl

/-- The context rows' y tiled over the query rows. -/
theorem ytile_ctx_apply (Y : Arr S8x1024x2) (b : Fin 8) (n m : Fin 1024) (f : Fin 2) :
    val_main_v6 (F := Ideal) Y (ix4 b n m f) = Y (ix3 b m f) := by
  rw [val_main_v6_apply, val_main_v5_apply, idx_ctx_Y]

/-- The query rows' y tiled over the context rows. -/
theorem ytile_qry_apply (Y : Arr S8x1024x2) (b : Fin 8) (n m : Fin 1024) (f : Fin 2) :
    val_main_v8 (F := Ideal) Y (ix4 b n m f) = Y (ix3 b n f) := by
  rw [val_main_v8_apply, val_main_v7_apply, idx_qry_Y]

/-- Entries 0 and 1 of the feature vector at [b,n,m] are the difference x[b,m] − x[b,n]. -/
theorem feat_diff (X Y : Arr S8x1024x2) (b : Fin 8) (n m : Fin 1024) (c : Fin 6) (f : Fin 2) (hc : c.val = f.val) :
    val_main_v9 (F := Ideal) X Y (ix4 b n m c) = X (ix3 b m f) - X (ix3 b n f) := by
  unfold val_main_v9
  rw [concatenate_apply_piece (3 : Fin 4) _ _ (ix4 b n m c) 0 (by simp) S8x1024x1024x2 (val_main_v4 (F := Ideal) X) rfl rfl
    0 rfl (ix4 b n m f) ?_ ?_, diff_apply]
  · intro a ha
    match a with
    | ⟨0, _⟩ => rfl
    | ⟨1, _⟩ => rfl
    | ⟨2, _⟩ => rfl
    | ⟨3, _⟩ => exact absurd rfl ha
  · show 0 + f.val = c.val
    omega

/-- Entries 2 and 3 of the feature vector at [b,n,m] are y[b,m]. -/
theorem feat_ctx (X Y : Arr S8x1024x2) (b : Fin 8) (n m : Fin 1024) (c : Fin 6) (f : Fin 2) (hc : c.val = 2 + f.val) :
    val_main_v9 (F := Ideal) X Y (ix4 b n m c) = Y (ix3 b m f) := by
  unfold val_main_v9
  rw [concatenate_apply_piece (3 : Fin 4) _ _ (ix4 b n m c) 1 (by simp) S8x1024x1024x2 (val_main_v6 (F := Ideal) Y) rfl rfl
    2 rfl (ix4 b n m f) ?_ ?_, ytile_ctx_apply]
  · intro a ha
    match a with
    | ⟨0, _⟩ => rfl
    | ⟨1, _⟩ => rfl
    | ⟨2, _⟩ => rfl
    | ⟨3, _⟩ => exact absurd rfl ha
  · show 2 + f.val = c.val
    omega

/-- Entries 4 and 5 of the feature vector at [b,n,m] are y[b,n]. -/
theorem feat_qry (X Y : Arr S8x1024x2) (b : Fin 8) (n m : Fin 1024) (c : Fin 6) (f : Fin 2) (hc : c.val = 4 + f.val) :
    val_main_v9 (F := Ideal) X Y (ix4 b n m c) = Y (ix3 b n f) := by
  unfold val_main_v9
  rw [concatenate_apply_piece (3 : Fin 4) _ _ (ix4 b n m c) 2 (by simp) S8x1024x1024x2 (val_main_v8 (F := Ideal) Y) rfl rfl
    4 rfl (ix4 b n m f) ?_ ?_, ytile_qry_apply]
  · intro a ha
    match a with
    | ⟨0, _⟩ => rfl
    | ⟨1, _⟩ => rfl
    | ⟨2, _⟩ => rfl
    | ⟨3, _⟩ => exact absurd rfl ha
  · show 4 + f.val = c.val
    omega

end Cert.RefSide

end
-- ==== Proof.RefHidden.lean ====
/-
  The first layer of the reference, read at an index, is the specification's hidden-layer pre-activation.

  The reference multiplies the concatenated features [x_m − x_n, y_m, y_n] by the six rows of W1 and adds b1.
  The specification groups the same six products by the row they depend on: the query row's
  (y_n·W1[4..5] − x_n·W1[0..1]) and the context row's (x_m·W1[0..1] + y_m·W1[2..3]).  Passing from one grouping to
  the other uses (x_m − x_n)·w = x_m·w − x_n·w and a rearrangement of the sum, both valid because the entries of
  x, y and W1 are real numbers; b1 is added last on both sides and may be any extended real.
-/
import proofs.«113326_j27135603376523_1_alg».proof.Proof.RefCtx

noncomputable section

open scoped BigOperators

namespace Cert.RefSide

open Cert.ReferenceIdeal Cert.ReferenceIdeal.Gen Cert.ReferenceIdeal.Read
open Idealize.ShloMosaic Idealize.ShloMosaic.ValueIdx Cert.Deepset

/-- The first contraction reads the feature vector at [b,n,m] along its six entries. -/
theorem lidx_feat (b : Fin 8) (n m : Fin 1024) (k : Fin 16) (c : Fin 6) :
    lidx_main_v10 (ix4 b n m k) c = ix4 b n m c :=
  funext fun a => Fin.ext (by match a with | ⟨0, _⟩ => rfl | ⟨1, _⟩ => rfl | ⟨2, _⟩ => rfl | ⟨3, _⟩ => rfl)

/-- … against column k of W1. -/
theorem ridx_feat (b : Fin 8) (n m : Fin 1024) (k : Fin 16) (c : Fin 6) :
    ridx_main_v10 (ix4 b n m k) c = ix2 c k :=
  funext fun a => Fin.ext (by match a with | ⟨0, _⟩ => rfl | ⟨1, _⟩ => rfl)

/-- The first bias, broadcast over [b,n,m], is read at k. -/
theorem idx_bias1 (b : Fin 8) (n m : Fin 1024) (k : Fin 16) :
    idx_main_v11 (idx_main_v12 (ix4 b n m k)) = ix1 k :=
  funext fun a => Fin.ext (by match a with | ⟨0, _⟩ => rfl)

theorem hidden_eq (X Y : Arr S8x1024x2) (W1 : Arr S6x16) (B1 : Arr S16)
    (hX : ∀ i, ∃ r : ℝ, X i = (r : EReal)) (hY : ∀ i, ∃ r : ℝ, Y i = (r : EReal))
    (hW : ∀ i, ∃ r : ℝ, W1 i = (r : EReal)) (b : Fin 8) (n m : Fin 1024) (k : Fin 16) :
    val_main_v13 (F := Ideal) X Y W1 B1 (ix4 b n m k) = Cert.Deepset.hidden X Y W1 B1 b n m k := by
  rw [val_main_v13_apply, val_main_v10_apply, val_main_v12_apply, val_main_v11_apply, idx_bias1]
  simp only [Fin.sum_univ_six, lidx_feat, ridx_feat]
  rw [feat_diff X Y b n m 0 0 rfl, feat_diff X Y b n m 1 1 rfl, feat_ctx X Y b n m 2 0 rfl,
    feat_ctx X Y b n m 3 1 rfl, feat_qry X Y b n m 4 0 rfl, feat_qry X Y b n m 5 1 rfl]
  unfold Cert.Deepset.hidden qryPart ctxPart
  simp only [Fin.sum_univ_two]
  have w00 : w1row 0 0 = 0 := rfl
  have w01 : w1row 0 1 = 1 := rfl
  have w10 : w1row 1 0 = 2 := rfl
  have w11 : w1row 1 1 = 3 := rfl
  have w20 : w1row 2 0 = 4 := rfl
  have w21 : w1row 2 1 = 5 := rfl
  rw [w00, w01, w10, w11, w20, w21]
  obtain ⟨xm0, exm0⟩ := hX (ix3 b m 0)
  obtain ⟨xm1, exm1⟩ := hX (ix3 b m 1)
  obtain ⟨xn0, exn0⟩ := hX (ix3 b n 0)
  obtain ⟨xn1, exn1⟩ := hX (ix3 b n 1)
  obtain ⟨ym0, eym0⟩ := hY (ix3 b m 0)
  obtain ⟨ym1, eym1⟩ := hY (ix3 b m 1)
  obtain ⟨yn0, eyn0⟩ := hY (ix3 b n 0)
  obtain ⟨yn1, eyn1⟩ := hY (ix3 b n 1)
  obtain ⟨w0, ew0⟩ := hW (ix2 0 k)
  obtain ⟨w1, ew1⟩ := hW (ix2 1 k)
  obtain ⟨w2, ew2⟩ := hW (ix2 2 k)
  obtain ⟨w3, ew3⟩ := hW (ix2 3 k)
  obtain ⟨w4, ew4⟩ := hW (ix2 4 k)
  obtain ⟨w5, ew5⟩ := hW (ix2 5 k)
  rw [exm0, exm1, exn0, exn1, eym0, eym1, eyn0, eyn1, ew0, ew1, ew2, ew3, ew4, ew5, Ideal.addf_def]
  simp only [← EReal.coe_mul, ← EReal.coe_sub, ← EReal.coe_add]
  refine congrArg (· + B1 (ix1 k)) ?_
  rw [EReal.coe_eq_coe_iff]
  ring

end Cert.RefSide

end
-- ==== Proof.RefSide.lean ====
/-
  The reference's side: its run read back one operation at a time, and its result as the function of Spec.lean.

  After the first layer (RefHidden.lean) the reference and the specification are the same expression: the rectifier
  max(z, 0), the sixteen-term contraction with W2, the second bias, the sum over the 1024 context rows started from
  zero, and the division by 1024, which over the extended reals is multiplication by the real 1/1024.
-/
import proofs.«113326_j27135603376523_1_alg».proof.Proof.RefHidden
import proofs.«113326_j27135603376523_1_alg».proof.Proof.Gen.Pre_finite_inputs

noncomputable section

open scoped BigOperators

namespace Cert.RefSide

open Cert.ReferenceIdeal Cert.ReferenceIdeal.Gen Cert.ReferenceIdeal.Read
open Idealize.ShloMosaic Idealize.ShloMosaic.ValueIdx Cert.Deepset

/-- Summand m of the pooling sum for output [b,n,o] is the second layer's entry [b,n,m,o]. -/
theorem idx_pool (b : Fin 8) (n : Fin 1024) (o : Fin 16) (m : Fin 1024) :
    idx_main_v19 (ix3 b n o) m = ix4 b n m o :=
  funext fun a => Fin.ext (by match a with | ⟨0, _⟩ => rfl | ⟨1, _⟩ => rfl | ⟨2, _⟩ => rfl | ⟨3, _⟩ => rfl)

/-- The second contraction reads the rectified hidden vector at [b,n,m] along its sixteen entries. -/
theorem lidx_hid (b : Fin 8) (n m : Fin 1024) (o : Fin 16) (k : Fin 16) :
    lidx_main_v15 (ix4 b n m o) k = ix4 b n m k :=
  funext fun a => Fin.ext (by match a with | ⟨0, _⟩ => rfl | ⟨1, _⟩ => rfl | ⟨2, _⟩ => rfl | ⟨3, _⟩ => rfl)

/-- … against column o of W2. -/
theorem ridx_hid (b : Fin 8) (n m : Fin 1024) (o : Fin 16) (k : Fin 16) :
    ridx_main_v15 (ix4 b n m o) k = ix2 k o :=
  funext fun a => Fin.ext (by match a with | ⟨0, _⟩ => rfl | ⟨1, _⟩ => rfl)

/-- The second bias, broadcast over [b,n,m], is read at o. -/
theorem idx_bias2 (b : Fin 8) (n m : Fin 1024) (o : Fin 16) :
    idx_main_v16 (idx_main_v17 (ix4 b n m o)) = ix1 o :=
  funext fun a => Fin.ext (by match a with | ⟨0, _⟩ => rfl)

/-- The second layer of the reference at [b,n,m,o], over the rectified hidden units. -/
theorem phi_eq (X Y : Arr S8x1024x2) (W1 : Arr S6x16) (B1 : Arr S16) (W2 : Arr S16x16) (B2 : Arr S16)
    (hX : ∀ i, ∃ r : ℝ, X i = (r : EReal)) (hY : ∀ i, ∃ r : ℝ, Y i = (r : EReal))
    (hW : ∀ i, ∃ r : ℝ, W1 i = (r : EReal)) (b : Fin 8) (n m : Fin 1024) (o : Fin 16) :
    val_main_v18 (F := Ideal) X Y W1 B1 W2 B2 (ix4 b n m o)
      = phi (Cert.Deepset.hidden X Y W1 B1) W2 B2 b n m o := by
  rw [val_main_v18_apply, val_main_v15_apply, val_main_v17_apply, val_main_v16_apply, idx_bias2]
  simp only [lidx_hid, ridx_hid, val_main_v14_apply, val_main_call0_v0_apply, val_main_call0_cst_apply,
    hidden_eq X Y W1 B1 hX hY hW]
  unfold phi
  simp only [Ideal.addf_def, Ideal.maximumf_def, Ideal.ofBits_def, Ideal.ofBits_zero_f32]

/-- **The reference computes the specification's function**: for x, y and W1 with real entries (b1, W2 and b2 may be any
    extended reals), the last stage of the reference read back operation by operation is `Cert.Deepset.result`. -/
theorem ref_result (X Y : Arr S8x1024x2) (W1 : Arr S6x16) (B1 : Arr S16) (W2 : Arr S16x16) (B2 : Arr S16)
    (hX : ∀ i, ∃ r : ℝ, X i = (r : EReal)) (hY : ∀ i, ∃ r : ℝ, Y i = (r : EReal))
    (hW : ∀ i, ∃ r : ℝ, W1 i = (r : EReal)) :
    val_main_v21 (F := Ideal) X Y W1 B1 W2 B2 = Cert.Deepset.result X Y W1 B1 W2 B2 := by
  funext i
  obtain ⟨b, n, o, rfl⟩ : ∃ (b : Fin 8) (n : Fin 1024) (o : Fin 16), i = ix3 b n o := ⟨i 0, i 1, i 2, eq_ix3 i⟩
  rw [val_main_v21_apply, val_main_v19_apply, val_main_v20_apply, val_main_cst_0_apply, val_main_cst_apply]
  simp only [idx_pool, phi_eq X Y W1 B1 W2 B2 hX hY hW]
  unfold Cert.Deepset.result Cert.Deepset.pool
  simp only [Ideal.hostDivf_def, Ideal.ofBits_def, Ideal.ofBits_zero_f32, ofBits_1024, zero_add]
  rw [Ideal.div_coe (by norm_num)]

end Cert.RefSide

end
-- ==== Proof.Finite.lean ====
/-
  From the precondition to the facts the algebra uses: every entry of each argument array is a real number.

  The precondition is the conjunction, over the seven argument arrays, of "every entry has absolute value below +∞".
  Over the extended reals |x| = max x (−x), which is +∞ exactly at the two infinities, so |x| < +∞ says x is real.
-/
import proofs.«113326_j27135603376523_1_alg».proof.Proof.Gen.Pre_finite_inputs
import Idealize.ShloMosaic.Lib.ReduceAll
import Idealize.ShloMosaic.Lib.ValueIdx
import Idealize.ShloMosaic.PureOps.Ideal.Laws

noncomputable section

namespace Cert.Finite

open Idealize.ShloMosaic Idealize.ShloMosaic.ValueIdx Cert.Pre_finite_inputs Cert.Pre_finite_inputs.Gen

/-- The single-precision pattern 0x7F800000 is +∞. -/
theorem ofBits_inf : Ideal.ofBits .f32 0x7F800000#32 = (⊤ : EReal) := by
  simp [Ideal.ofBits, Ideal.ieee]

/-- An extended real whose absolute value is below +∞ is a real number. -/
theorem real_of_abs_lt_top (x : EReal) (h : max x (-x) < ⊤) : ∃ r : ℝ, x = (r : EReal) := by
  induction x using EReal.rec with
  | bot => simp at h
  | coe r => exact ⟨r, rfl⟩
  | top => simp at h

/-- One entry's test, read back. -/
theorem real_of_test (x : Ideal .f32)
    (h : FloatOps.cmpf (F := Ideal) .olt (FloatOps.hostAbsf x) (FloatOps.ofBits .f32 0x7F800000#32) = 1#1) :
    ∃ r : ℝ, x = (r : EReal) := by
  apply real_of_abs_lt_top
  rw [Ideal.hostAbsf_def, Ideal.absf_def, Ideal.ofBits_def, ofBits_inf, Ideal.cmpf_def] at h
  have h' : BitVec.ofBool (decide (max x (-x) < ⊤)) = 1#1 := h
  by_contra hn
  rw [decide_eq_false hn] at h'
  exact absurd h' (by decide)

instance : Subsingleton S_.Idx := ⟨fun _ _ => funext fun d => d.elim0⟩

/-- One array's test — every entry's absolute value below +∞, the answers reduced by "and" from 1 — read back. -/
theorem entries_real {S : Shape} {axes : List (Fin S.rank)} (Z : FVec Ideal S .f32)
    (hb : S_.BroadcastsInDim S (![] : Fin 0 → Fin S.rank)) (hr : S.ReducesTo axes S_) (hu : 0 < S_.numel)
    (e : Host.reduce IntOp.andi (cmpf .olt (Host.absf Z) (broadcastInDim S ![] hb (constant S_ .f32 0x7F800000#32)))
      (constantI S_ 1 1#1) hr hu ix0 = 1#1) :
    ∀ i, ∃ r : ℝ, Z i = (r : EReal) :=
  fun i => real_of_test (Z i) (Host.reduce_andi_all _ _ hr hu ix0 e i)

/-- **Under the precondition every entry of every argument array is a real number.** -/
theorem finite_all (X Y : FVec Ideal S8x1024x2 .f32) (A2 : FVec Ideal S8x256x2 .f32) (W1 : FVec Ideal S6x16 .f32)
    (B1 : FVec Ideal S16 .f32) (W2 : FVec Ideal S16x16 .f32) (B2 : FVec Ideal S16 .f32)
    (h : fn (F := Ideal) X Y A2 W1 B1 W2 B2 = (fun _ => 1#1)) :
    (∀ i, ∃ r : ℝ, X i = (r : EReal)) ∧ (∀ i, ∃ r : ℝ, Y i = (r : EReal)) ∧ (∀ i, ∃ r : ℝ, A2 i = (r : EReal))
      ∧ (∀ i, ∃ r : ℝ, W1 i = (r : EReal)) ∧ (∀ i, ∃ r : ℝ, B1 i = (r : EReal))
      ∧ (∀ i, ∃ r : ℝ, W2 i = (r : EReal)) ∧ (∀ i, ∃ r : ℝ, B2 i = (r : EReal)) := by
  have h0 := congrFun h ix0
  dsimp only [fn, fn_part1, andi] at h0
  simp only [IntOp.andi_eq_one] at h0
  obtain ⟨⟨⟨⟨⟨⟨hX, hY⟩, hA⟩, hW1⟩, hB1⟩, hW2⟩, hB2⟩ := h0
  exact ⟨entries_real X _ _ _ hX, entries_real Y _ _ _ hY, entries_real A2 _ _ _ hA, entries_real W1 _ _ _ hW1,
    entries_real B1 _ _ _ hB1, entries_real W2 _ _ _ hW2, entries_real B2 _ _ _ hB2⟩

/-- The three facts the reference's algebra uses. -/
theorem finite_of_pre (X Y : FVec Ideal S8x1024x2 .f32) (A2 : FVec Ideal S8x256x2 .f32) (W1 : FVec Ideal S6x16 .f32)
    (B1 : FVec Ideal S16 .f32) (W2 : FVec Ideal S16x16 .f32) (B2 : FVec Ideal S16 .f32)
    (h : fn (F := Ideal) X Y A2 W1 B1 W2 B2 = (fun _ => 1#1)) :
    (∀ i, ∃ r : ℝ, X i = (r : EReal)) ∧ (∀ i, ∃ r : ℝ, Y i = (r : EReal)) ∧ (∀ i, ∃ r : ℝ, W1 i = (r : EReal)) :=
  let a := finite_all X Y A2 W1 B1 W2 B2 h
  ⟨a.1, a.2.1, a.2.2.2.1⟩

end Cert.Finite

end
-- ==== Proof.RefPre.lean ====
/-
  The reference's result under the precondition: the finiteness of x, y and W1 that the first layer's regrouping
  needs is what the precondition says of those arrays.
-/
import proofs.«113326_j27135603376523_1_alg».proof.Proof.RefSide
import proofs.«113326_j27135603376523_1_alg».proof.Proof.Finite

noncomputable section

namespace Cert.RefSide

open Cert.ReferenceIdeal Cert.ReferenceIdeal.Read Idealize.ShloMosaic

/-- For argument arrays that pass the finiteness test, the last stage of the reference is the specification's
    function of them (the third argument array takes part in the test only). -/
theorem ref_result_of_pre (X Y : Arr S8x1024x2) (A2 : Arr S8x256x2) (W1 : Arr S6x16) (B1 : Arr S16) (W2 : Arr S16x16)
    (B2 : Arr S16) (h : Cert.Pre_finite_inputs.fn (F := Ideal) X Y A2 W1 B1 W2 B2 = (fun _ => 1#1)) :
    val_main_v21 (F := Ideal) X Y W1 B1 W2 B2 = Cert.Deepset.result X Y W1 B1 W2 B2 :=
  let a := Cert.Finite.finite_of_pre X Y A2 W1 B1 W2 B2 h
  ref_result X Y W1 B1 W2 B2 a.1 a.2.1 a.2.2

end Cert.RefSide

end
-- ==== Proof.lean ====
/-
  The claim: a deep-set encoder over a fully connected context graph, as a tiled accelerator kernel and as plain
  array code, compute the same function at the extended reals.

  For every batch b, query row n and output unit o the result is the mean over the 1024 context rows m of
  phi(b, n, m, o) = ∑ k, relu(z b n m k) · W2[k,o] + b2[o], where z is the first linear layer applied to the
  concatenated features [x_m − x_n, y_m, y_n] (Spec.lean).  The reference materializes the feature tensor and sums
  over m at once.  The kernel walks an 8 × 8 × 8 grid (batch, query tile, context tile): it splits the first layer
  into a query part and a context part, accumulates the tile's partial sums over the eight context tiles in a scratch
  buffer that it zeroes at the first tile, and writes the scaled accumulator out at the last.

  The frames (each program runs to the end, faults nowhere and leaves its arguments as they were): the two kernel
  programs through the launch theorem for windows that share arrays — the x and y arrays are each read through two
  windows, the full share of each split in halves — with the body run case by case (KBody / KFrame / KRun and
  KIBody / KIFrame / KIRun); the reference through its straight-line run.  The idealization rewrote nothing.  The
  two results agree because (a) the kernel's result array is the specification's function of the arguments
  (KIValue: the accumulator after the last context tile is the sum over all 1024 context rows, and 2⁻¹⁰ is 1/1024),
  and (b) so is the reference's (RefSide), where the finiteness of x, y and W1 is used once, to distribute the
  first layer over the difference x_m − x_n.
-/
import proofs.«113326_j27135603376523_1_alg».proof.Defs
import proofs.«113326_j27135603376523_1_alg».proof.Proof.Gen.Kernel
import proofs.«113326_j27135603376523_1_alg».proof.Proof.Gen.KernelIdeal
import proofs.«113326_j27135603376523_1_alg».proof.Proof.Gen.ReferenceIdeal
import proofs.«113326_j27135603376523_1_alg».proof.Proof.Gen.Pre_finite_inputs
import proofs.«113326_j27135603376523_1_alg».proof.Proof.KRun
import proofs.«113326_j27135603376523_1_alg».proof.Proof.KIRun
import proofs.«113326_j27135603376523_1_alg».proof.Proof.KIValue
import proofs.«113326_j27135603376523_1_alg».proof.Proof.RefPre
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_k : Cert.frame_Kernel := fun m ρ _ => Cert.Kernel.Hand.frame m ρ

/-- So does its idealization. -/
theorem frame_ki : Cert.frame_KernelIdeal := fun m ρ _ => Cert.KernelIdeal.Hand.frame m ρ

/-- The reference is straight-line host code: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealized kernel is the kernel's own text read at the extended reals: nothing was rewritten. -/
theorem preserves : Cert.preserves_Kernel_KernelIdeal := trivial

/-- Both programs end with the specification's function of the argument arrays in their result. -/
theorem algebraic : Cert.algebraic_KernelIdeal_ReferenceIdeal := by
  intro m ρ m' ρ' hpre hagree
  refine ⟨fun c => Cert.Deepset.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · refine (θ_run Cert.KernelIdeal.defs _ _).mono (fun _ h c => ?_) (Cert.KernelIdeal.Hand.run_main (F := Ideal) m ρ)
    exact ⟨((h c).1 8).trans (Cert.KernelIdeal.HandValue.final8 m c),
      ((h c).1 0).trans (((Cert.KernelIdeal.Hand.dats m 0 c).arrAt_in 0 rfl _).trans (Cert.KernelIdeal.Hand.A_eq m c 0)),
      ((h c).1 1).trans (((Cert.KernelIdeal.Hand.dats m 0 c).arrAt_in 1 rfl _).trans (Cert.KernelIdeal.Hand.A_eq m c 1)),
      (h c).2,
      ((h c).1 4).trans (((Cert.KernelIdeal.Hand.dats m 0 c).arrAt_in 4 rfl _).trans (Cert.KernelIdeal.Hand.A_eq m c 4)),
      ((h c).1 5).trans (((Cert.KernelIdeal.Hand.dats m 0 c).arrAt_in 5 rfl _).trans (Cert.KernelIdeal.Hand.A_eq m c 5)),
      ((h c).1 6).trans (((Cert.KernelIdeal.Hand.dats m 0 c).arrAt_in 6 rfl _).trans (Cert.KernelIdeal.Hand.A_eq m c 6)),
      ((h c).1 7).trans (((Cert.KernelIdeal.Hand.dats m 0 c).arrAt_in 7 rfl _).trans (Cert.KernelIdeal.Hand.A_eq m c 7))⟩
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v21_eq, (hagree c).1, (hagree c).2.1, (hagree c).2.2.2.1, (hagree c).2.2.2.2.1,
      (hagree c).2.2.2.2.2.1, (hagree c).2.2.2.2.2.2]
    exact Cert.RefSide.ref_result_of_pre _ _
      (m ((c.tc : Thread Cert.KernelIdeal.nD Cert.KernelIdeal.τ).loc Cert.KernelIdeal.main_arg2)) _ _ _ _ (hpre c)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
